-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "pos_big" .f32 0x7149F2CA#32 ⊤
  ∧ IdealRules.named_const.Statement Cert.KernelIdeal.κ "pos_big" .f32 0x7149F2CA#32 ⊤

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S512x64 : Shape := ⟨2, ![512, 64]⟩
abbrev S262144 : Shape := ⟨1, ![262144]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_

variable [Facts]

def fn {F : FTy → Type} [FloatOps F] (main_arg0 : FVec F S262144x64 .f32) (main_arg1 : FVec F S512x64 .f32) (main_arg2 : IVec S262144 32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  main_v8
-- ==== Kernel.lean ====
abbrev S262144x64 : Shape := ⟨2, ![262144, 64]⟩
abbrev S512x64 : Shape := ⟨2, ![512, 64]⟩
abbrev S262144 : Shape := ⟨1, ![262144]⟩
abbrev S512 : Shape := ⟨1, ![512]⟩
abbrev S_ : Shape := ⟨0, ![]⟩
abbrev S1x512 : Shape := ⟨2, ![1, 512]⟩
abbrev S64x512 : Shape := ⟨2, ![64, 512]⟩
abbrev S262144x1 : Shape := ⟨2, ![262144, 1]⟩
abbrev S1x1 : Shape := ⟨2, ![1, 1]⟩
abbrev S2048x64 : Shape := ⟨2, ![2048, 64]⟩
abbrev S2048x1 : Shape := ⟨2, ![2048, 1]⟩
abbrev S2048 : Shape := ⟨1, ![2048]⟩
abbrev S2048x512 : Shape := ⟨2, ![2048, 512]⟩
abbrev S1 : Shape := ⟨1, ![1]⟩

abbrev nBuf : Space → Nat
  | .hbm => 36
  | .vmem => 9
  | .smem => 0
  | _ => 0

abbrev bufTy : (tb : Table) → Fin (tcTables nBuf tb) → BufTy
  | .hbm, ⟨0, _⟩ => ⟨S262144x64, .f32⟩
  | .hbm, ⟨1, _⟩ => ⟨S512x64, .f32⟩
  | .hbm, ⟨2, _⟩ => ⟨S262144, .i32⟩
  | .hbm, ⟨3, _⟩ => ⟨S512, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S_, .i32⟩
  | .hbm, ⟨13, _⟩ => ⟨S512, .i32⟩
  | .hbm, ⟨14, _⟩ => ⟨S512, .i1⟩
  | .hbm, ⟨15, _⟩ => ⟨S_, .i32⟩
  | .hbm, ⟨16, _⟩ => ⟨S512, .i32⟩
  | .hbm, ⟨17, _⟩ => ⟨S512, .i1⟩
  | .hbm, ⟨18, _⟩ => ⟨S_, .i32⟩
  | .hbm, ⟨19, _⟩ => ⟨S_, .i1⟩
  | .hbm, ⟨20, _⟩ => ⟨S512, .i1⟩
  | .hbm, ⟨21, _⟩ => ⟨S512, .i1⟩
  | .hbm, ⟨22, _⟩ => ⟨S512, .i1⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S1x512, .i32⟩
  | .hbm, ⟨27, _⟩ => ⟨S512x64, .f32⟩
  | .hbm, ⟨28, _⟩ => ⟨S_, .f32⟩
  | .hbm, ⟨29, _⟩ => ⟨S512, .f32⟩
  | .hbm, ⟨30, _⟩ => ⟨S1x512, .f32⟩
  | .hbm, ⟨31, _⟩ => ⟨S64x512, .f32⟩
  | .hbm, ⟨32, _⟩ => ⟨S64x512, .bf16⟩
  | .hbm, ⟨33, _⟩ => ⟨S262144x1, .i32⟩
  | .hbm, ⟨34, _⟩ => ⟨S1x1, .f32⟩
  | .hbm, ⟨35, _⟩ => ⟨S_, .f32⟩
  | .local _ .vmem, ⟨0, _⟩ => ⟨S2048x64, .f32⟩
  | .local _ .vmem, ⟨1, _⟩ => ⟨S2048x64, .f32⟩
  | .local _ .vmem, ⟨2, _⟩ => ⟨S64x512, .bf16⟩
  | .local _ .vmem, ⟨3, _⟩ => ⟨S1x512, .f32⟩
  | .local _ .vmem, ⟨4, _⟩ => ⟨S1x512, .i32⟩
  | .local _ .vmem, ⟨5, _⟩ => ⟨S2048x1, .i32⟩
  | .local _ .vmem, ⟨6, _⟩ => ⟨S2048x1, .i32⟩
  | .local _ .vmem, ⟨7, _⟩ => ⟨S1x1, .f32⟩
  | .local _ .vmem, ⟨8, _⟩ => ⟨S1x1, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v55 : BitVec 1 := Scalar.cmpi .eq arg0 c127_i32
  let v56 : BitVec 32 := Scalar.extui v55
  let c0_i32_26 : BitVec 32 := 0#32
  let v57 : BitVec 1 := Scalar.cmpi .ne v56 c0_i32_26
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  bcast_S_S512 : S_.BroadcastsInDim S512 (![] : Fin 0 → Fin S512.rank)
  shapeCasts_S512_S1x512 : S512.ShapeCasts S1x512
  reducesTo_S512x64_S512_d1 : S512x64.ReducesTo [1] S512
  h_S_ : 0 < S_.numel
  transposes_S512x64_S64x512_1_0 : S512x64.Transposes [1, 0] S64x512
  bitsLt_bf16_f32 : FTy.bits .bf16 < FTy.bits .f32
  shapeCasts_S262144_S262144x1 : S262144.ShapeCasts S262144x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x64_S2048x64_0_0 : ∀ a, (![0, 0] : Fin 2 → Nat) a + S2048x64.size a ≤ S2048x64.size a
  h_S2048x64 : 0 < S2048x64.numel
  reduces_S2048x64_S2048 : S2048x64.Reduces [1] S2048
  shapeCasts_S2048_S2048x1 : S2048.ShapeCasts S2048x1
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S2048x1_S2048x512 : S2048x1.Broadcasts S2048x512
  broadcasts_S1x512_S2048x512 : S1x512.Broadcasts S2048x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  reduces_S2048x512_S2048 : S2048x512.Reduces [1] S2048
  reduces_S2048x1_S1 : S2048x1.Reduces [0] S1
  shapeCasts_S1_S1x1 : S1.ShapeCasts S1x1
  shapeCasts_S1x1_S_ : S1x1.ShapeCasts S_
  dot_S2048x64_S64x512_S2048x512_1_0_0_1_n_n_wf : DotDims.WF S2048x64 S64x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S262144x64.size a
  hwx0_0 : ∀ i : grid0.Coords, EltTy.bits .f32 = 32 ∨ (Rect.block (s := S262144x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .bf16 = 32 ∨ (Rect.block (s := S64x512) S64x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .i32 = 32 ∨ (Rect.block (s := S1x512) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S262144x1.size a
  hwx0_4 : ∀ i : grid0.Coords, EltTy.bits .i32 = 32 ∨ (Rect.block (s := S262144x1) S2048x1.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def dot_S2048x64_S64x512_S2048x512_1_0_0_1_n_n : DotDims S2048x64 S64x512 S2048x512 where
  lhsContracting := [1]
  rhsContracting := [0]
  lhsNonContracting := [0]
  rhsNonContracting := [1]
  lhsBatch := []
  rhsBatch := []
  wf := dot_S2048x64_S64x512_S2048x512_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S2048x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S262144x64 : Shape := ⟨2, ![262144, 64]⟩
abbrev S512x64 : Shape := ⟨2, ![512, 64]⟩
abbrev S262144 : Shape := ⟨1, ![262144]⟩
abbrev S512 : Shape := ⟨1, ![512]⟩
abbrev S_ : Shape := ⟨0, ![]⟩
abbrev S262144x1 : Shape := ⟨2, ![262144, 1]⟩
abbrev S1x512 : Shape := ⟨2, ![1, 512]⟩
abbrev S262144x512 : Shape := ⟨2, ![262144, 512]⟩
abbrev S64x512 : Shape := ⟨2, ![64, 512]⟩

abbrev nBuf : Space → Nat
  | .hbm => 79
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S512x64, .f32⟩
  | .hbm, ⟨2, _⟩ => ⟨S262144, .i32⟩
  | .hbm, ⟨3, _⟩ => ⟨S512, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S_, .i32⟩
  | .hbm, ⟨13, _⟩ => ⟨S512, .i32⟩
  | .hbm, ⟨14, _⟩ => ⟨S512, .i1⟩
  | .hbm, ⟨15, _⟩ => ⟨S_, .i32⟩
  | .hbm, ⟨16, _⟩ => ⟨S512, .i32⟩
  | .hbm, ⟨17, _⟩ => ⟨S512, .i1⟩
  | .hbm, ⟨18, _⟩ => ⟨S_, .i32⟩
  | .hbm, ⟨19, _⟩ => ⟨S_, .i1⟩
  | .hbm, ⟨20, _⟩ => ⟨S512, .i1⟩
  | .hbm, ⟨21, _⟩ => ⟨S512, .i1⟩
  | .hbm, ⟨22, _⟩ => ⟨S512, .i1⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S262144x64, .f32⟩
  | .hbm, ⟨27, _⟩ => ⟨S_, .f32⟩
  | .hbm, ⟨28, _⟩ => ⟨S262144, .f32⟩
  | .hbm, ⟨29, _⟩ => ⟨S262144x1, .f32⟩
  | .hbm, ⟨30, _⟩ => ⟨S512x64, .f32⟩
  | .hbm, ⟨31, _⟩ => ⟨S_, .f32⟩
  | .hbm, ⟨32, _⟩ => ⟨S512, .f32⟩
  | .hbm, ⟨33, _⟩ => ⟨S1x512, .f32⟩
  | .hbm, ⟨34, _⟩ => ⟨S262144x512, .f32⟩
  | .hbm, ⟨35, _⟩ => ⟨S262144x512, .f32⟩
  | .hbm, ⟨36, _⟩ => ⟨S262144x512, .f32⟩
  | .hbm, ⟨37, _⟩ => ⟨S64x512, .f32⟩
  | .hbm, ⟨38, _⟩ => ⟨S262144x512, .f32⟩
  | .hbm, ⟨39, _⟩ => ⟨S_, .f32⟩
  | .hbm, ⟨40, _⟩ => ⟨S262144x512, .f32⟩
  | .hbm, ⟨41, _⟩ => ⟨S262144x512, .f32⟩
  | .hbm, ⟨42, _⟩ => ⟨S262144x512, .f32⟩
  | .hbm, ⟨43, _⟩ => ⟨S1x512, .i32⟩
  | .hbm, ⟨44, _⟩ => ⟨S262144x1, .i32⟩
  | .hbm, ⟨45, _⟩ => ⟨S262144x512, .i32⟩
  | .hbm, ⟨46, _⟩ => ⟨S262144x512, .i32⟩
  | .hbm, ⟨47, _⟩ => ⟨S262144x512, .i1⟩
  | .hbm, ⟨48, _⟩ => ⟨S_, .f32⟩
  | .hbm, ⟨49, _⟩ => ⟨S262144x512, .f32⟩
  | .hbm, ⟨50, _⟩ => ⟨S262144x512, .f32⟩
  | .hbm, ⟨51, _⟩ => ⟨S_, .f32⟩
  | .hbm, ⟨52, _⟩ => ⟨S262144, .f32⟩
  | .hbm, ⟨53, _⟩ => ⟨S_, .f32⟩
  | .hbm, ⟨54, _⟩ => ⟨S262144x512, .f32⟩
  | .hbm, ⟨55, _⟩ => ⟨S262144x512, .f32⟩
  | .hbm, ⟨56, _⟩ => ⟨S_, .f32⟩
  | .hbm, ⟨57, _⟩ => ⟨S262144, .f32⟩
  | .hbm, ⟨58, _⟩ => ⟨S262144, .f32⟩
  | .hbm, ⟨59, _⟩ => ⟨S262144, .f32⟩
  | .hbm, ⟨60, _⟩ => ⟨S_, .f32⟩
  | .hbm, ⟨61, _⟩ => ⟨S262144, .f32⟩
  | .hbm, ⟨62, _⟩ => ⟨S262144, .f32⟩
  | .hbm, ⟨63, _⟩ => ⟨S262144, .f32⟩
  | .hbm, ⟨64, _⟩ => ⟨S_, .f32⟩
  | .hbm, ⟨65, _⟩ => ⟨S262144, .f32⟩
  | .hbm, ⟨66, _⟩ => ⟨S262144, .f32⟩
  | .hbm, ⟨67, _⟩ => ⟨S262144, .f32⟩
  | .hbm, ⟨68, _⟩ => ⟨S262144, .f32⟩
  | .hbm, ⟨69, _⟩ => ⟨S_, .f32⟩
  | .hbm, ⟨70, _⟩ => ⟨S262144, .f32⟩
  | .hbm, ⟨71, _⟩ => ⟨S262144, .f32⟩
  | .hbm, ⟨72, _⟩ => ⟨S_, .f32⟩
  | .hbm, ⟨73, _⟩ => ⟨S262144, .f32⟩
  | .hbm, ⟨74, _⟩ => ⟨S262144, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v1 : Ref sig .tc := ⟨.hbm, 25, rfl⟩
abbrev main_v2 : Ref sig .tc := ⟨.hbm, 26, rfl⟩
abbrev main_cst : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_cst_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_1 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_2 : Ref sig .tc := ⟨.hbm, 48, rfl⟩
abbrev main_call1_v0 : Ref sig .tc := ⟨.hbm, 49, rfl⟩
abbrev main_v21 : Ref sig .tc := ⟨.hbm, 50, rfl⟩
abbrev main_cst_3 : Ref sig .tc := ⟨.hbm, 51, rfl⟩
abbrev main_v22 : Ref sig .tc := ⟨.hbm, 52, rfl⟩
abbrev main_cst_4 : Ref sig .tc := ⟨.hbm, 53, rfl⟩
abbrev main_call2_v0 : Ref sig .tc := ⟨.hbm, 54, rfl⟩
abbrev main_v23 : Ref sig .tc := ⟨.hbm, 55, rfl⟩
abbrev main_cst_5 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_6 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_7 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_cst_8 : Ref sig .tc := ⟨.hbm, 69, rfl⟩
abbrev main_v34 : Ref sig .tc := ⟨.hbm, 70, rfl⟩
abbrev main_v35 : Ref sig .tc := ⟨.hbm, 71, rfl⟩
abbrev main_cst_9 : Ref sig .tc := ⟨.hbm, 72, rfl⟩
abbrev main_v36 : Ref sig .tc := ⟨.hbm, 73, rfl⟩
abbrev main_v37 : Ref sig .tc := ⟨.hbm, 74, rfl⟩
abbrev main_cst_10 : Ref sig .tc := ⟨.hbm, 75, rfl⟩
abbrev main_v38 : Ref sig .tc := ⟨.hbm, 76, rfl⟩
abbrev main_cst_11 : Ref sig .tc := ⟨.hbm, 77, rfl⟩
abbrev main_v39 : Ref sig .tc := ⟨.hbm, 78, rfl⟩

abbrev nD : Nat := 1
abbrev τ : Topo := Topo.v7x

variable {F : FTy → Type} [FloatOps F]

class Facts₀ : Prop where
  bcast_S_S512 : S_.BroadcastsInDim S512 (![] : Fin 0 → Fin S512.rank)
  reducesTo_S262144x64_S262144_d1 : S262144x64.ReducesTo [1] S262144
  h_S_ : 0 < S_.numel
  bcast_S262144_S262144x1_0 : S262144.BroadcastsInDim S262144x1 (![0] : Fin 1 → Fin S262144x1.rank)
  reducesTo_S512x64_S512_d1 : S512x64.ReducesTo [1] S512
  bcast_S512_S1x512_1 : S512.BroadcastsInDim S1x512 (![1] : Fin 1 → Fin S1x512.rank)
  bcast_S262144x1_S262144x512_0_1 : S262144x1.BroadcastsInDim S262144x512 (![0, 1] : Fin 2 → Fin S262144x512.rank)
  bcast_S1x512_S262144x512_0_1 : S1x512.BroadcastsInDim S262144x512 (![0, 1] : Fin 2 → Fin S262144x512.rank)
  transposes_S512x64_S64x512_1_0 : S512x64.Transposes [1, 0] S64x512
  bcast_S_S262144x512 : S_.BroadcastsInDim S262144x512 (![] : Fin 0 → Fin S262144x512.rank)
  reducesTo_S262144x512_S262144_d1 : S262144x512.ReducesTo [1] S262144
  bcast_S_S262144 : S_.BroadcastsInDim S262144 (![] : Fin 0 → Fin S262144.rank)
  reducesTo_S262144_S_d0 : S262144.ReducesTo [0] S_
  dot_S262144x64_S64x512_S262144x512_1_0_0_1_n_n_wf : DotDims.WF S262144x64 S64x512 S262144x512 [1] [0] [0] [1] [] []

variable [Facts₀]

def dot_S262144x64_S64x512_S262144x512_1_0_0_1_n_n : DotDims S262144x64 S64x512 S262144x512 where
  lhsContracting := [1]
  rhsContracting := [0]
  lhsNonContracting := [0]
  rhsNonContracting := [1]
  lhsBatch := []
  rhsBatch := []
  wf := dot_S262144x64_S64x512_S262144x512_1_0_0_1_n_n_wf

class Facts : Prop extends Facts₀ where

variable [Facts]
-- ==== Proof.Cases.lean ====
/-
  What each control case of the kernel body leaves in the carried accumulator and in the output block.

  The body keeps a running sum in a one-entry scratch. At the first grid point it stores the zero entry and then adds the
  point's partial sum to it; at every later point it adds the point's partial sum to what the point before left; at the
  last point it also stores the running sum divided by the sample count into the output block. Each lemma reads the one
  covering store of a case back as the payload of the case's loads: the input blocks, and the scratch as it was found.
-/
import proofs.«149939_j49520972923161_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Cases

open Cert.KernelIdeal Cert.KernelIdeal.Gen

variable {F : FTy → Type} [FloatOps F] [Named F]

theorem hz : (![0, 0] : Fin 2 → Nat) = fun _ => 0 := funext fun a => by fin_cases a <;> rfl

/-- The running sum after a point: what it was (`s`) plus the point's partial sum, a function of the point's blocks. -/
def step (x0 : Vec F S2048x64 .f32) (x1 : Vec F S64x512 .bf16) (x2 : Vec F S1x512 .f32) (x3 : Vec F S1x512 .i32) (x4 : Vec F S2048x1 .i32) (s : Vec F S1x1 .f32) : Vec F S1x1 .f32 :=
  k0_pay1 (k0_pay8 x0 x1 x2 x3 x4) (k0_pay9 x0 x1 x2 x3 x4) s

/-- A middle point adds its partial sum to the scratch as found. -/
theorem sout_B (c : Dev nD) (i : grid0.Coords) (arg1 : Memref sig .tc .vmem S2048x64 .f32) (harg1 : arg1.IsWhole) (arg2 : Memref sig .tc .vmem S64x512 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S2048x1 .i32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 : Vec F S2048x64 .f32) (x1 : Vec F S64x512 .bf16) (x2 : Vec F S1x512 .f32) (x3 : Vec F S1x512 .i32) (x4 : Vec F S2048x1 .i32) (xs0 : Vec F S1x1 .f32) :
    sout0_B_0 c i arg1 harg1 arg2 harg2 arg3 harg3 arg4 harg4 arg5 harg5 arg6 harg6 arg7 harg7 hc0 hc1 x0 x1 x2 x3 x4 xs0 = step x0 x1 x2 x3 x4 xs0 := by
  unfold sout0_B_0
  rw [View.read_writes_eq_canon _ _ _ (scover0_B_0 c i arg1 harg1 arg2 harg2 arg3 harg3 arg4 harg4 arg5 harg5 arg6 harg6 arg7 harg7 hc0 hc1 x0 x1 x2 x3 x4 xs0)]
  unfold kernelRun0_B
  dsimp only
  sl_unfold_words
  rw [View.canon_unit_zero hz]
  simp only [View.readAt_eq_ld, harg1.read_unread, harg2.read_unread, harg3.read_unread, harg4.read_unread, harg5.read_unread, harg7.read_unread,
    View.ld_unit_zero (S := S2048x64) hz, View.ld_unit_zero (S := S64x512) hz, View.ld_unit_zero (S := S1x512) hz, View.ld_unit_zero (S := S2048x1) hz, View.ld_unit_zero (S := S1x1) hz]
  rfl

/-- The first point stores the zero entry, then adds its partial sum to it. -/
theorem sout_A (c : Dev nD) (i : grid0.Coords) (arg1 : Memref sig .tc .vmem S2048x64 .f32) (harg1 : arg1.IsWhole) (arg2 : Memref sig .tc .vmem S64x512 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S2048x1 .i32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 : Vec F S2048x64 .f32) (x1 : Vec F S64x512 .bf16) (x2 : Vec F S1x512 .f32) (x3 : Vec F S1x512 .i32) (x4 : Vec F S2048x1 .i32) :
    sout0_A_0 c i arg1 harg1 arg2 harg2 arg3 harg3 arg4 harg4 arg5 harg5 arg6 harg6 arg7 harg7 hc0 hc1 x0 x1 x2 x3 x4 = step x0 x1 x2 x3 x4 (k0_pay3 (F := F)) := by
  unfold sout0_A_0
  rw [View.read_writes_eq_canon _ _ _ (scover0_A_0 c i arg1 harg1 arg2 harg2 arg3 harg3 arg4 harg4 arg5 harg5 arg6 harg6 arg7 harg7 hc0 hc1 x0 x1 x2 x3 x4)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg7.read_unread,
    View.ld_unit_zero (S := S2048x64) hz, View.ld_unit_zero (S := S64x512) hz, View.ld_unit_zero (S := S1x512) hz, View.ld_unit_zero (S := S2048x1) hz, View.ld_unit_zero (S := S1x1) hz]
  rfl

/-- The last point adds its partial sum to the scratch as found … -/
theorem sout_C (c : Dev nD) (i : grid0.Coords) (arg1 : Memref sig .tc .vmem S2048x64 .f32) (harg1 : arg1.IsWhole) (arg2 : Memref sig .tc .vmem S64x512 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S2048x1 .i32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 : Vec F S2048x64 .f32) (x1 : Vec F S64x512 .bf16) (x2 : Vec F S1x512 .f32) (x3 : Vec F S1x512 .i32) (x4 : Vec F S2048x1 .i32) (xs0 : Vec F S1x1 .f32) :
    sout0_C_0 c i arg1 harg1 arg2 harg2 arg3 harg3 arg4 harg4 arg5 harg5 arg6 harg6 arg7 harg7 hc0 hc1 x0 x1 x2 x3 x4 xs0 = step x0 x1 x2 x3 x4 xs0 := by
  unfold sout0_C_0
  rw [View.read_writes_eq_canon _ _ _ (scover0_C_0 c i arg1 harg1 arg2 harg2 arg3 harg3 arg4 harg4 arg5 harg5 arg6 harg6 arg7 harg7 hc0 hc1 x0 x1 x2 x3 x4 xs0)]
  unfold kernelRun0_C
  dsimp only
  sl_unfold_words
  rw [View.canon_unit_zero hz]
  simp only [View.readAt_eq_ld, harg1.read_unread, harg2.read_unread, harg3.read_unread, harg4.read_unread, harg5.read_unread, harg7.read_unread,
    View.ld_unit_zero (S := S2048x64) hz, View.ld_unit_zero (S := S64x512) hz, View.ld_unit_zero (S := S1x512) hz, View.ld_unit_zero (S := S2048x1) hz, View.ld_unit_zero (S := S1x1) hz]
  rfl

/-- … and stores the running sum divided by the sample count into the output block. -/
theorem out_C (c : Dev nD) (i : grid0.Coords) (arg1 : Memref sig .tc .vmem S2048x64 .f32) (harg1 : arg1.IsWhole) (arg2 : Memref sig .tc .vmem S64x512 .bf16) (harg2 : arg2.IsWhole) (arg3 : Memref sig .tc .vmem S1x512 .f32) (harg3 : arg3.IsWhole) (arg4 : Memref sig .tc .vmem S1x512 .i32) (harg4 : arg4.IsWhole) (arg5 : Memref sig .tc .vmem S2048x1 .i32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 : Vec F S2048x64 .f32) (x1 : Vec F S64x512 .bf16) (x2 : Vec F S1x512 .f32) (x3 : Vec F S1x512 .i32) (x4 : Vec F S2048x1 .i32) (xs0 : Vec F S1x1 .f32) :
    out0_C_5 c i arg1 harg1 arg2 harg2 arg3 harg3 arg4 harg4 arg5 harg5 arg6 harg6 arg7 harg7 hc0 hc1 x0 x1 x2 x3 x4 xs0 = k0_pay2 (step x0 x1 x2 x3 x4 xs0) := by
  unfold out0_C_5
  rw [View.read_writes_eq_canon _ _ _ (cover0_C_5 c i arg1 harg1 arg2 harg2 arg3 harg3 arg4 harg4 arg5 harg5 arg6 harg6 arg7 harg7 hc0 hc1 x0 x1 x2 x3 x4 xs0)]
  unfold kernelRun0_C
  dsimp only
  sl_unfold_words
  rw [View.canon_unit_zero hz, View.readCov_unit_zero (S := S1x1) _ hz]
  simp only [View.readAt_eq_ld, harg1.read_unread, harg2.read_unread, harg3.read_unread, harg4.read_unread, harg5.read_unread, harg7.read_unread,
    View.ld_unit_zero (S := S2048x64) hz, View.ld_unit_zero (S := S64x512) hz, View.ld_unit_zero (S := S1x512) hz, View.ld_unit_zero (S := S2048x1) hz, View.ld_unit_zero (S := S1x1) hz]
  rfl

end Cert.KernelIdeal.Cases

end
-- ==== Proof.LibKeepdims.lean ====
/-
  Column layouts and a lane sum read at an index.

  A sum over the last axis that keeps its dimension leaves a column: the [a] vector of row sums viewed as [a, 1],
  then spread along the rows of an [a, b] array. Read at `(p, c)` that array holds the sum of row `p`, whatever the
  column `c`. The lemmas here say so one layout step at a time, for every extent:
  • `shapeCast_a_a1_apply`: a vector [a] viewed as a column [a, 1] reads, at `(p, 0)`, the vector at `p`;
  • `broadcastTo_a1_ab_apply`: a column [a, 1] spread to [a, b] reads, at `(p, c)`, the column at `(p, 0)`;
  • `laneSum_apply`: over the extended reals, the sum of an [a, b] array along its last axis reads, at `p`, the
    finite sum over `k < b` of the array at `(p, k)`.
  Together with the library's row forms ([a] viewed as [1, a], a row [1, b] spread to [a, b]) these read every
  `sum(axis = -1, keepdims = True)` a kernel body broadcasts back over its block.
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx

variable {α : Type}

/-- A vector [a] viewed as a column [a, 1]: entry `(p, u)` of the column is entry `p` of the vector (row-major
    position `p · 1 + 0 = p`). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] spread along the rows of an [a, b] array: entry `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the extended reals the sum of an [a, b] array along its last axis, read at row `p`, is `∑ k < b` of the
    array at `(p, k)`: the reduced index with the summed coordinate put back is `(p, k)`. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun d => Fin.ext (by
      match d with
      | ⟨0, _⟩ => rfl
      | ⟨1, _⟩ => rfl)))

end Cert.Lib.Keepdims

end
-- ==== Proof.LibAxisFolds.lean ====
/-
  Sums and maxima along one axis, and the layouts of a pairwise difference, read at an index.

  A pairwise operation between the rows of two matrices is written by spreading each over a third axis: the [a, c] matrix
  viewed as [a, 1, c] and repeated along the middle axis, the [b, c] matrix viewed as [1, b, c] and repeated along the
  first, both [a, b, c]; a reduction over the last axis then leaves one number per pair. The lemmas here read each of
  those steps at an index given by coordinates, for every extent:
  • `shapeCast_ab_a1b_apply`: [a, c] viewed as [a, 1, c] reads, at `(p, u, k)`, the matrix at `(p, k)`;
  • `broadcastTo_a1c_abc_apply`: [a, 1, c] repeated to [a, b, c] reads, at `(p, q, k)`, the operand at `(p, 0, k)`;
  • `broadcastTo_1bc_abc_apply`: [1, b, c] repeated to [a, b, c] reads, at `(p, q, k)`, the operand at `(0, q, k)`;
  • `lastSum3_apply`: over the extended reals the sum of an [a, b, c] array along its last axis reads, at `(p, q)`,
    `∑ k < c` of the array at `(p, q, k)`.
  And for a matrix [a, b] reduced along either axis, over the extended reals:
  • `firstSum_apply`: the sum along the first axis reads, at `q`, `∑ k < a` of the matrix at `(k, q)`;
  • `lastMax_apply` / `firstMax_apply`: the maximum along the last (first) axis is the fold of `max`, from the value of
    the accumulator's word, over the entries of the row (column);
  • `hostLastMax_apply` / `hostFirstMax_apply`: the same for a host reduction with a maximum body, from its initial value.
-/
import Idealize.ShloMosaic.Lib.Pipeline.Value
import Idealize.ShloMosaic.Lib.ValueIdx
import Idealize.ShloMosaic.PureOps.Ideal.Laws

noncomputable section

namespace Cert.Lib.AxisFolds

open Idealize.ShloMosaic Idealize.ShloMosaic.ValueIdx

variable {α : Type}

/-- A matrix [a, c] viewed as [a, 1, c]: entry `(p, u, k)` is entry `(p, k)` of the matrix (the row-major positions
    `(p · 1 + 0) · c + k` and `p · c + k` agree). -/
theorem shapeCast_ab_a1b_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_three, Shape.rowMajor_val_two]
    show p.val * c + k.val = (p.val * 1 + u.val) * c + k.val
    rw [hu, Nat.mul_one, Nat.add_zero])

/-- [a, 1, c] repeated along its middle axis: entry `(p, q, k)` is the operand's entry `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- [1, b, c] repeated along its first axis: entry `(p, q, k)` is the operand's entry `(0, q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- Over the extended reals the sum of an [a, b, c] array along its last axis, read at `(p, q)`, is `∑ k < c` of the array
    at `(p, q, k)`. -/
theorem lastSum3_apply {a b c : ℕ} {φ : FTy} (v : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ v acc h hφ hacc (ix2 p q) = ∑ k : Fin c, v (ix3 p q k) :=
  (Ideal.multiReduction_add_single v acc h hφ hacc (ix2 p q)).trans
    (Finset.sum_congr rfl fun k _ => congrArg v (funext fun d => Fin.ext (by
      match d with
      | ⟨0, _⟩ => rfl
      | ⟨1, _⟩ => rfl
      | ⟨2, _⟩ => rfl)))

/-- Over the extended reals the sum of an [a, b] matrix along its first axis, read at column `q`, is `∑ k < a` of the
    matrix at `(k, q)`. -/
theorem firstSum_apply {a b : ℕ} {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ v acc h hφ hacc (ix1 q) = ∑ k : Fin a, v (ix2 k q) :=
  (Ideal.multiReduction_add_single v acc h hφ hacc (ix1 q)).trans
    (Finset.sum_congr rfl fun k _ => congrArg v (funext fun d => Fin.ext (by
      match d with
      | ⟨0, _⟩ => rfl
      | ⟨1, _⟩ => rfl)))

/-- Over the extended reals the maximum of an [a, b] matrix along its last axis, read at row `p`, is the fold of `max`,
    from the value of the accumulator's word, over the entries `(p, k)` of the row. -/
theorem lastMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) fun k => v (ix2 p k) :=
  (Ideal.multiReduction_maximumf_single v acc h hφ hacc (ix1 p)).trans
    (congrArg (fun f => (Finset.univ : Finset (Fin b)).fold max (Ideal.ofBits φ acc) f) (funext fun k =>
      congrArg v (funext fun d => Fin.ext (by
        match d with
        | ⟨0, _⟩ => rfl
        | ⟨1, _⟩ => rfl))))

/-- The same along the first axis: at column `q`, the fold of `max` over the entries `(k, q)` of the column. -/
theorem firstMax_apply {a b : ℕ} {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (q : Fin b) :
    multiReduction .maximumf [0] ⟨1, ![b]⟩ v acc h hφ hacc (ix1 q)
      = (Finset.univ : Finset (Fin a)).fold max (Ideal.ofBits φ acc) fun k => v (ix2 k q) :=
  (Ideal.multiReduction_maximumf_single v acc h hφ hacc (ix1 q)).trans
    (congrArg (fun f => (Finset.univ : Finset (Fin a)).fold max (Ideal.ofBits φ acc) f) (funext fun k =>
      congrArg v (funext fun d => Fin.ext (by
        match d with
        | ⟨0, _⟩ => rfl
        | ⟨1, _⟩ => rfl))))

/-- A host reduction with a maximum body along the last axis of an [a, b] matrix, over the extended reals: at row `p` the
    fold of `max`, from the initial value, over the entries `(p, k)` of the row. -/
theorem hostLastMax_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) fun k => x (ix2 p k) :=
  (Host.reduce_eq_fold_single (FloatOps.maximumf (F := Ideal) (φ := φ)) x init h' h hu (ix1 p)).trans
    (congrArg (fun f => (Finset.univ : Finset (Fin b)).fold max (init (Shape.Idx.first hu)) f) (funext fun k =>
      congrArg x (funext fun d => Fin.ext (by
        match d with
        | ⟨0, _⟩ => rfl
        | ⟨1, _⟩ => rfl))))

/-- The same along the first axis: at column `q`, the fold of `max`, from the initial value, over the column's entries. -/
theorem hostFirstMax_apply {a b : ℕ} {φ : FTy} {u : Shape} (x : FVec Ideal ⟨2, ![a, b]⟩ φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) :=
  (Host.reduce_eq_fold_single (FloatOps.maximumf (F := Ideal) (φ := φ)) x init h' h hu (ix1 q)).trans
    (congrArg (fun f => (Finset.univ : Finset (Fin a)).fold max (init (Shape.Idx.first hu)) f) (funext fun k =>
      congrArg x (funext fun d => Fin.ext (by
        match d with
        | ⟨0, _⟩ => rfl
        | ⟨1, _⟩ => rfl))))

end Cert.Lib.AxisFolds

end
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.LibRowMin.lean ====
/-
  Minima along the last axis of a matrix, read at a row, over the extended reals.

  A masked nearest-neighbour search takes, for every row of an [a, b] matrix of distances, the least entry of the row.
  A kernel takes it with a lane reduction from an accumulator word, a host program with a reduction whose body is a
  minimum, from an initial value. Over the extended reals `min` commutes and associates, so either is, at row `p`, the
  fold of `min` — from the accumulator's (initial) value — over the entries `(p, k)`, `k < b`, of the row, in any order:
  • `lastMin_apply`: a kernel's `multi_reduction <minimumf>` along the last axis;
  • `hostLastMin_apply`: a host `reduce` with a minimum body along the last axis.
  General in the two extents, the float format and the initial value's shape.
-/
import Idealize.ShloMosaic.Lib.ValueIdx
import Idealize.ShloMosaic.PureOps.Ideal.Laws

noncomputable section

namespace Cert.Lib.RowMin

open Idealize.ShloMosaic Idealize.ShloMosaic.ValueIdx

/-- Over the extended reals the minimum of an [a, b] matrix along its last axis, read at row `p`, is the fold of `min`,
    from the value of the accumulator's word, over the entries `(p, k)` of the row. -/
theorem lastMin_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (p : Fin a) :
    multiReduction .minimumf [1] ⟨1, ![a]⟩ v acc h hφ hacc (ix1 p)
      = (Finset.univ : Finset (Fin b)).fold min (Ideal.ofBits φ acc) fun k => v (ix2 p k) :=
  ((multiReduction_minimumf_eq_fold v acc h hφ hacc (ix1 p)).trans
      (h.fold_filter_drop_single (FloatOps.minimumf (F := Ideal) (φ := φ)) (FloatOps.ofBits φ acc) v (ix1 p))).trans
    (congrArg (fun f => (Finset.univ : Finset (Fin b)).fold min (Ideal.ofBits φ acc) f) (funext fun k =>
      congrArg v (funext fun d => Fin.ext (by
        match d with
        | ⟨0, _⟩ => rfl
        | ⟨1, _⟩ => rfl))))

/-- A host reduction with a minimum body along the last axis of an [a, b] matrix, over the extended reals: at row `p` the
    fold of `min`, from the initial value, over the entries `(p, k)` of the row. -/
theorem hostLastMin_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.minimumf (F := Ideal) (φ := φ)) x init h' hu (ix1 p)
      = (Finset.univ : Finset (Fin b)).fold min (init (Shape.Idx.first hu)) fun k => x (ix2 p k) :=
  (Host.reduce_eq_fold_single (FloatOps.minimumf (F := Ideal) (φ := φ)) x init h' h hu (ix1 p)).trans
    (congrArg (fun f => (Finset.univ : Finset (Fin b)).fold min (init (Shape.Idx.first hu)) f) (funext fun k =>
      congrArg x (funext fun d => Fin.ext (by
        match d with
        | ⟨0, _⟩ => rfl
        | ⟨1, _⟩ => rfl))))

end Cert.Lib.RowMin

end
-- ==== Proof.PaySum.lean ====
/-
  The running sum's update, the output entry and the starting entry, read at their one entry, over the extended reals.
-/
import proofs.«149939_j49520972923161_1_alg».proof.Proof.Gen.KernelIdeal.Skeleton
import proofs.«149939_j49520972923161_1_alg».proof.Proof.LibKeepdims
import proofs.«149939_j49520972923161_1_alg».proof.Proof.LibAxisFolds
import proofs.«149939_j49520972923161_1_alg».proof.Proof.LibPlainDot
import proofs.«149939_j49520972923161_1_alg».proof.Proof.LibRowMin
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

variable (x0 : FVec Ideal S2048x64 .f32) (x1 : FVec Ideal S64x512 .bf16) (x2 : FVec Ideal S1x512 .f32)
  (x3 : IVec S1x512 32) (x4 : IVec S2048x1 32)

/-- The logistic term as the body spells it: 1 / (1 + exp (0 - 1 · (d / n))). -/
def term (d n : EReal) : EReal :=
  Ideal.div (Ideal.ofBits .f32 0x3F800000#32)
    (Ideal.ofBits .f32 0x3F800000#32
      + Ideal.exp (Ideal.ofBits .f32 0x00000000#32 - Ideal.ofBits .f32 0x3F800000#32 * Ideal.div d n))

/-- The running sum after a block: what it was plus the sum over the block's 2048 rows of their terms. -/
theorem pay1_apply (v34 v37 : FVec Ideal S2048x1 .f32) (v50 : FVec Ideal S1x1 .f32) (a b : Fin 1) :
    k0_pay1 (F := Ideal) v34 v37 v50 (ix2 a b)
      = v50 (ix2 a b) + ∑ r : Fin 2048, term (v34 (ix2 r a)) (v37 (ix2 r a)) := by
  unfold k0_pay1
  (try dsimp only)
  refine (congrFun (shapeCast_self _ _) _).trans ?_
  refine (addf_apply _ _ _).trans (congrArg₂ (· + ·) rfl ?_)
  refine (Cert.Lib.Keepdims.shapeCast_a_a1_apply _ _ a b).trans ?_
  refine (Cert.Lib.AxisFolds.firstSum_apply _ _ _ _ _ a).trans ?_
  exact Finset.sum_congr rfl fun k _ => rfl

/-- The output entry: the running sum divided by the word of 262144. -/
theorem pay2_apply (v58 : FVec Ideal S1x1 .f32) (i : S1x1.Idx) :
    k0_pay2 (F := Ideal) v58 i = Ideal.div (v58 i) (Ideal.ofBits .f32 0x48800000#32) := rfl

/-- The entry the first point starts the running sum from: the zero word. -/
theorem pay3_apply (i : S1x1.Idx) : k0_pay3 (F := Ideal) i = Ideal.ofBits .f32 0x00000000#32 := by
  unfold k0_pay3
  (try dsimp only)
  exact congrFun (shapeCast_self _ _) _

end Cert.KernelIdeal.Pay

end
-- ==== Proof.Accum.lean ====
/-
  The running sum across the grid, and what the last point writes into the output block.

  The scratch entry after point n is the zero word plus the partial sums of the points 0 … n, added in point order: the
  first point starts from the zero entry, every later point from what the point before left. The output block is stored
  once, at the last point: the running sum after that point divided by the sample count.
-/
import proofs.«149939_j49520972923161_1_alg».proof.Proof.Cases
import proofs.«149939_j49520972923161_1_alg».proof.Proof.PaySum
import Mathlib.Algebra.BigOperators.Group.Finset.Basic

noncomputable section

open Idealize.ShloMosaic Idealize.ShloMosaic.TcCoe Idealize.SL.Sem

namespace Cert.KernelIdeal.Accum

open Cert.KernelIdeal Cert.KernelIdeal.Gen Idealize.ShloMosaic.ValueIdx

section AnyValues

variable {F : FTy → Type} [FloatOps F] [Named F]
variable (m : (ℓ : Loc nD τ sig) → Buf (Elt F) ℓ)

/-- The scratch entry after point n: the update of the point's blocks applied to what the point before left (at the
    first point, to the zero entry). -/
def acc (c : Dev nD) : (n : ℕ) → n < cfg0.N → Vec F S1x1 .f32
  | 0, h => Cases.step (iblk m c 0 ⟨0, h⟩) (iblk m c 1 ⟨0, h⟩) (iblk m c 2 ⟨0, h⟩) (iblk m c 3 ⟨0, h⟩) (iblk m c 4 ⟨0, h⟩) (k0_pay3 (F := F))
  | n + 1, h => Cases.step (iblk m c 0 ⟨n + 1, h⟩) (iblk m c 1 ⟨n + 1, h⟩) (iblk m c 2 ⟨n + 1, h⟩) (iblk m c 3 ⟨n + 1, h⟩) (iblk m c 4 ⟨n + 1, h⟩) (acc c n (Nat.lt_of_succ_lt h))

/-- What the frame's recursion over the grid leaves in the scratch after point n is that running sum. -/
theorem outsAt_snd (c : Dev nD) : ∀ (n : ℕ) (h : n < cfg0.N), (outsAt0 m c n h).2 = acc m c n h
  | 0, h => by
    rw [outsAt0_A m c ⟨0, h⟩ rfl (by show ¬(0 % 128 = 127); decide)]
    dsimp only
    rw [Cases.sout_A]
    rfl
  | n + 1, h => by
    have hN : cfg0.N = 128 := N_0
    have h0 : ¬(⟨n + 1, h⟩ : Fin cfg0.N).val % 128 = 0 := by dsimp only; omega
    by_cases h1 : (⟨n + 1, h⟩ : Fin cfg0.N).val % 128 = 127
    · rw [outsAt0_C m c ⟨n + 1, h⟩ h0 h1]
      dsimp only
      rw [Cases.sout_C]
      show Cases.step _ _ _ _ _ (outsAt0 m c n _).2 = Cases.step _ _ _ _ _ (acc m c n _)
      rw [outsAt_snd c n]
    · rw [outsAt0_B m c ⟨n + 1, h⟩ h0 h1]
      dsimp only
      rw [Cases.sout_B]
      show Cases.step _ _ _ _ _ (outsAt0 m c n _).2 = Cases.step _ _ _ _ _ (acc m c n _)
      rw [outsAt_snd c n]

/-- At the last point the output block receives the running sum after that point, divided by the sample count. -/
theorem outsAt_fst_last (c : Dev nD) : ∀ (n : ℕ) (h : n < cfg0.N), n % 128 = 127 →
    (outsAt0 m c n h).1 = k0_pay2 (acc m c n h)
  | 0, h, h1 => absurd h1 (by decide)
  | n + 1, h, h1 => by
    have hN : cfg0.N = 128 := N_0
    have h0 : ¬(⟨n + 1, h⟩ : Fin cfg0.N).val % 128 = 0 := by dsimp only; omega
    rw [outsAt0_C m c ⟨n + 1, h⟩ h0 h1]
    dsimp only
    rw [Cases.out_C]
    show k0_pay2 (Cases.step _ _ _ _ _ (outsAt0 m c n _).2) = k0_pay2 (Cases.step _ _ _ _ _ (acc m c n _))
    rw [outsAt_snd m c n]

end AnyValues

section ExtendedReals

variable (m : (ℓ : Loc nD τ sig) → Buf (Elt Ideal) ℓ)

/-- Point t's partial sum: the sum over the block's 2048 rows of their terms. -/
def part (c : Dev nD) (t : Fin cfg0.N) : EReal :=
  ∑ r : Fin 2048,
    Pay.term (k0_pay8 (F := Ideal) (iblk m c 0 t) (iblk m c 1 t) (iblk m c 2 t) (iblk m c 3 t) (iblk m c 4 t) (ix2 r (0 : Fin 1)))
      (k0_pay9 (F := Ideal) (iblk m c 0 t) (iblk m c 1 t) (iblk m c 2 t) (iblk m c 3 t) (iblk m c 4 t) (ix2 r (0 : Fin 1)))

/-- The same, counted by a natural number (zero past the grid). -/
def partN (c : Dev nD) (t : ℕ) : EReal := if h : t < cfg0.N then part m c ⟨t, h⟩ else 0

/-- Over the extended reals the running sum after point n is the zero word plus the partial sums of the points 0 … n. -/
theorem acc_apply (c : Dev nD) : ∀ (n : ℕ) (h : n < cfg0.N),
    acc m c n h (ix2 (0 : Fin 1) (0 : Fin 1)) = Ideal.ofBits .f32 0x00000000#32 + ∑ t ∈ Finset.range (n + 1), partN m c t
  | 0, h => by
    show Cases.step _ _ _ _ _ _ _ = _
    unfold Cases.step
    refine (Pay.pay1_apply _ _ _ 0 0).trans ?_
    rw [Pay.pay3_apply, Finset.sum_range_one]
    unfold partN
    rw [dif_pos h]
    rfl
  | n + 1, h => by
    show Cases.step _ _ _ _ _ _ _ = _
    unfold Cases.step
    refine (Pay.pay1_apply _ _ _ 0 0).trans ?_
    rw [acc_apply c n (Nat.lt_of_succ_lt h), Finset.sum_range_succ _ (n + 1), add_assoc]
    refine congrArg₂ (· + ·) rfl (congrArg₂ (· + ·) rfl ?_)
    unfold partN
    rw [dif_pos h]
    rfl

end ExtendedReals

end Cert.KernelIdeal.Accum

end
-- ==== Proof.KernelValue.lean ====
/-
  The kernel program's result, read off its frame run.

  The output block [1, 1] is written back once, after the last grid point, and that one block is the whole output
  array: it ends holding the running sum after the last point divided by the sample count. The program's result is that
  array viewed as a scalar.
-/
import proofs.«149939_j49520972923161_1_alg».proof.Proof.Accum
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.StableHlo
open Idealize.ShloMosaic.Pipeline (Dat)

namespace Cert.KernelIdeal.KValue

open Cert.KernelIdeal Cert.KernelIdeal.Gen Idealize.ShloMosaic.ValueIdx

variable {F : FTy → Type} [FloatOps F] [Named F]
variable (m : (ℓ : Loc nD τ sig) → Buf (Elt F) ℓ) (ρ : Dev nD → PrngReg)

/-- The last grid point. -/
abbrev tLast : Fin cfg0.N := ⟨127, by decide⟩

/-- The output window's block sits at the origin at every point. -/
theorem idx5 : ∀ (t : Fin cfg0.N) (a : Fin 2), win0_5.index t a * main_v9.ty.shape.size a = 0 :=
  (by decide +kernel : ∀ (t : Fin grid0.N) (a : Fin 2), win0_5.index t a * main_v9.ty.shape.size a = 0)

/-- What the output array ends holding: the running sum after the last point, divided by the sample count. -/
abbrev outBlock (c : Dev nD) : Buf (Elt F) ((c : Thread nD τ).loc main_v9) :=
  k0_pay2 (Accum.acc m c 127 (by decide))

/-- A block [1, 1] left in the output's staging buffer at the last point is written back whole, at the origin of the
    [1, 1] array: read back through that block, the array is the block. -/
theorem cut_eq_read (X : Vec F S1x1 .f32) :
    (cfg0.win 5).cut (grid0.coords tLast) X = ((cfg0.win 5).blk tLast).view.read (Elt F) X := by
  have hz' : (fun a => win0_5.index tLast a * main_v9.ty.shape.size a) = fun _ => 0 := funext fun a => idx5 tLast a
  exact (Memref.read_access_unit_zero (Elt F) main_v9 hz' (fun a => by rw [congrFun hz' a]; simp) X).symm

/-- The one write-back, after the last point, writes the running sum divided by the sample count. -/
theorem flushed_eq (c : Dev nD) (t : Fin cfg0.N) (hf : (cfg0.win 5).flush t = true) :
    (dats m 0 c).flushed 5 t = ((cfg0.win 5).blk t).view.read (Elt F) (outBlock m c) := by
  have hN : cfg0.N = 128 := N_0
  have h127 : t.val % 128 = 127 := (flush0_5 t).mp hf
  have ht : t.val = 127 := by have := t.isLt; omega
  obtain rfl : t = tLast := Fin.ext ht
  show (cfg0.win 5).cut (grid0.coords tLast) ((dats m 0 c).after 5 tLast) = _
  rw [after0_5, Accum.outsAt_fst_last m c 127 _ rfl]
  exact cut_eq_read _

/-- So the output array ends holding that block: the last point's write-back covers it. -/
theorem final5 (c : Dev nD) : (dats m 0 c).arrAt 5 cfg0.N = outBlock m c :=
  (dats m 0 c).arrAt_eq_of_cover 5 (outBlock m c) (flushed_eq m c) fun i =>
    ⟨tLast, (flush0_5 tLast).mpr rfl, by
      show i ∈ ((View.whole main_v9).slice (win0_5.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 1 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 1 from by decide +kernel]; omega⟩

/-- The host line after the region views the output array as a scalar. -/
theorem tail_v10 (c : Dev nD) (G : Buf (Elt F) ((c : Thread nD τ).loc main_v9)) (hG : (dats m 0 c).arrAt 5 cfg0.N = G) :
    Pipeline.afterTail₀ cfgs (dats m) 0 (V0 m) [hostOps1] c main_v10
      = shapeCast S_ G Facts₀.shapeCasts_S1x1_S_ := by
  unfold Pipeline.afterTail₀
  show StableHlo.after hostOps1 _ (Proc.devRef .tc main_v10) = _
  after_results
  rw [show Pipeline.withArrays (cfgs 0).spec c (V0 m c) (fun w => (dats m 0 c).arrAt w (cfgs 0).N) (Proc.devRef .tc main_v9) = G
    from (Pipeline.withArrays_arr spec0 launch0.win.arr_inj c _ _ 5).trans hG]
  rfl

/-- The run, read: the program's result is the output block viewed as a scalar, and the arguments end unchanged. -/
theorem run : θ_run defs (onTc (τ := τ) (main (F := F))) ⟨m, fun _ => 0, ρ⟩ fun r => ∀ c : Dev nD,
      r.2.mem ((c.tc : Thread nD τ).loc main_v10) = shapeCast S_ (outBlock m c) Facts₀.shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v10 (Pipeline.mem_restRefs_of main_v10 (by decide) (by decide))).trans (tail_v10 m c _ (final5 m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-- A [1, 1] block viewed as a scalar reads its one entry. -/
theorem scalar_apply {α : Type} (v : (⟨2, ![1, 1]⟩ : Shape).Idx → α) (h : (⟨2, ![1, 1]⟩ : Shape).ShapeCasts ⟨0, ![]⟩)
    (i : (⟨0, ![]⟩ : Shape).Idx) : shapeCast ⟨0, ![]⟩ v h i = v (ix2 (0 : Fin 1) (0 : Fin 1)) :=
  shapeCast_apply v h i (ix2 (0 : Fin 1) (0 : Fin 1)) (by
    rw [Shape.rowMajor_val_two]
    show 0 * 1 + 0 = (Shape.rowMajorPi _ i).val
    rw [Shape.rowMajorPi_zero])

end Cert.KernelIdeal.KValue

end
-- ==== Proof.PayDist.lean ====
/-
  The distance matrix and the label mask of one block, read at an entry, over the extended reals.

  x0 is the block of 2048 samples [2048, 64], x1 the transposed prototypes [64, 512], x2 the prototypes' squared norms
  as a row [1, 512], x3 the prototypes' labels as a row [1, 512], x4 the samples' labels as a column [2048, 1].
-/
import proofs.«149939_j49520972923161_1_alg».proof.Proof.Gen.KernelIdeal.Skeleton
import proofs.«149939_j49520972923161_1_alg».proof.Proof.LibKeepdims
import proofs.«149939_j49520972923161_1_alg».proof.Proof.LibAxisFolds
import proofs.«149939_j49520972923161_1_alg».proof.Proof.LibPlainDot
import proofs.«149939_j49520972923161_1_alg».proof.Proof.LibRowMin
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

variable (x0 : FVec Ideal S2048x64 .f32) (x1 : FVec Ideal S64x512 .bf16) (x2 : FVec Ideal S1x512 .f32)
  (x3 : IVec S1x512 32) (x4 : IVec S2048x1 32)

/-- Entry (r, j) of the distance matrix: the row's squared norm plus the prototype's, less twice their product. -/
theorem pay4_apply (r : Fin 2048) (j : Fin 512) :
    k0_pay4 (F := Ideal) x0 x1 x2 (ix2 r j)
      = ((∑ k : Fin 64, x0 (ix2 r k) * x0 (ix2 r k)) + x2 (ix2 (0 : Fin 1) j))
          - Ideal.ofBits .f32 0x40000000#32 * ∑ k : Fin 64, x0 (ix2 r k) * x1 (ix2 k j) := by
  unfold k0_pay4
  (try dsimp only)
  refine (subf_apply _ _ _).trans (congrArg₂ (· - ·) ((addf_apply _ _ _).trans (congrArg₂ (· + ·) ?_ ?_))
    ((mulf_apply _ _ _).trans (congrArg₂ (· * ·) rfl ?_)))
  · refine (Cert.Lib.Keepdims.broadcastTo_a1_ab_apply _ _ r j).trans ?_
    refine (Cert.Lib.Keepdims.shapeCast_a_a1_apply _ _ r (0 : Fin 1)).trans ?_
    exact Cert.Lib.Keepdims.laneSum_apply (mulf x0 x0) _ _ _ _ r
  · refine (broadcastTo_1b_ab_apply _ _ r j).trans ?_
    exact congrFun (shapeCast_self x2 _) _
  · refine (Cert.PlainDot.matmul_zero_apply _ rfl _ _ r j).trans ?_
    exact Finset.sum_congr rfl fun k _ => congrArg₂ (· * ·) rfl (congrFun (shapeCast_self x1 _) _)

/-- Entry (r, j) of the mask: prototype j's label against sample r's. -/
theorem pay5_apply (r : Fin 2048) (j : Fin 512) :
    k0_pay5 (F := Ideal) x3 x4 (ix2 r j) = IntOp.cmpi .eq (x3 (ix2 (0 : Fin 1) j)) (x4 (ix2 r (0 : Fin 1))) := by
  unfold k0_pay5
  (try dsimp only)
  refine congrArg₂ (IntOp.cmpi .eq) ?_ ?_
  · refine (broadcastTo_1b_ab_apply _ _ r j).trans ?_
    exact congrFun (shapeCast_self x3 _) _
  · refine (Cert.Lib.Keepdims.broadcastTo_a1_ab_apply _ _ r j).trans ?_
    exact congrFun (shapeCast_self x4 _) _

end Cert.KernelIdeal.Pay

end
-- ==== Proof.PayMin.lean ====
/-
  The two masked row minima of one block and the relative difference's two parts, read at a row, over the extended
  reals: each minimum is the fold of min, from the value of the +∞ word, over the 512 entries of the masked row.
-/
import proofs.«149939_j49520972923161_1_alg».proof.Proof.Gen.KernelIdeal.Skeleton
import proofs.«149939_j49520972923161_1_alg».proof.Proof.LibKeepdims
import proofs.«149939_j49520972923161_1_alg».proof.Proof.LibAxisFolds
import proofs.«149939_j49520972923161_1_alg».proof.Proof.LibPlainDot
import proofs.«149939_j49520972923161_1_alg».proof.Proof.LibRowMin
import proofs.«149939_j49520972923161_1_alg».proof.Proof.PayDist
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

variable (x0 : FVec Ideal S2048x64 .f32) (x1 : FVec Ideal S64x512 .bf16) (x2 : FVec Ideal S1x512 .f32)
  (x3 : IVec S1x512 32) (x4 : IVec S2048x1 32)

/-- Row r's least distance among the prototypes of the sample's class. -/
theorem pay6_apply (r : Fin 2048) (u : Fin 1) :
    k0_pay6 (F := Ideal) x0 x1 x2 x3 x4 (ix2 r u)
      = (Finset.univ : Finset (Fin 512)).fold min (Ideal.ofBits .f32 0x7F800000#32) fun j =>
          Scalar.select (k0_pay5 (F := Ideal) x3 x4 (ix2 r j)) (k0_pay4 (F := Ideal) x0 x1 x2 (ix2 r j))
            (Named.named (F := Ideal) κ "pos_big" (φ := .f32) 0x7149F2CA#32) := by
  unfold k0_pay6
  (try dsimp only)
  refine (Cert.Lib.Keepdims.shapeCast_a_a1_apply _ _ r u).trans ?_
  refine (Cert.Lib.RowMin.lastMin_apply _ _ _ _ _ r).trans ?_
  rfl

/-- Row r's least distance among the prototypes of the other classes. -/
theorem pay7_apply (r : Fin 2048) (u : Fin 1) :
    k0_pay7 (F := Ideal) x0 x1 x2 x3 x4 (ix2 r u)
      = (Finset.univ : Finset (Fin 512)).fold min (Ideal.ofBits .f32 0x7F800000#32) fun j =>
          Scalar.select (k0_pay5 (F := Ideal) x3 x4 (ix2 r j)) (Named.named (F := Ideal) κ "pos_big" (φ := .f32) 0x7149F2CA#32)
            (k0_pay4 (F := Ideal) x0 x1 x2 (ix2 r j)) := by
  unfold k0_pay7
  (try dsimp only)
  refine (Cert.Lib.Keepdims.shapeCast_a_a1_apply _ _ r u).trans ?_
  refine (Cert.Lib.RowMin.lastMin_apply _ _ _ _ _ r).trans ?_
  rfl

/-- The numerator of the relative difference, row by row: the difference of the two minima. -/
theorem pay8_apply (i : S2048x1.Idx) :
    k0_pay8 (F := Ideal) x0 x1 x2 x3 x4 i = k0_pay6 (F := Ideal) x0 x1 x2 x3 x4 i - k0_pay7 (F := Ideal) x0 x1 x2 x3 x4 i := by
  unfold k0_pay8
  exact subf_apply _ _ i

/-- The denominator: the sum of the two minima, plus ε. -/
theorem pay9_apply (i : S2048x1.Idx) :
    k0_pay9 (F := Ideal) x0 x1 x2 x3 x4 i
      = (k0_pay6 (F := Ideal) x0 x1 x2 x3 x4 i + k0_pay7 (F := Ideal) x0 x1 x2 x3 x4 i) + Ideal.ofBits .f32 0x3089705F#32 := by
  unfold k0_pay9
  (try dsimp only)
  exact (addf_apply _ _ i).trans (congrArg₂ (· + ·) (addf_apply _ _ i) rfl)

end Cert.KernelIdeal.Pay

end
-- ==== Proof.Spec.lean ====
/-
  The loss both programs compute, as one function of the argument arrays over the extended reals.

  A sample row x and a prototype row p are compared by the expanded squared distance
  |x|² + |p|² - 2·⟨x, p⟩. Each prototype j carries a class label (its number modulo 128); a sample carries the label y.
  The sample's loss term is the logistic function of the relative difference
  (d₁ - d₂) / (d₁ + d₂ + ε) between the distance d₁ to the nearest prototype of the sample's own class and the distance
  d₂ to the nearest prototype of any other class; a minimum over no prototype is +∞. The result is the mean of the
  262144 terms. Float literals are kept as the words the programs print (the same word on both sides is never evaluated).
-/
import Idealize.ShloMosaic.PureOps.Ideal
import Idealize.ShloMosaic.PureOps.Ideal.Laws
import Idealize.ShloMosaic.PureOps.Vector
import Idealize.ShloMosaic.Lib.ValueIdx

noncomputable section

namespace Cert.Glvq

open Idealize.ShloMosaic Idealize.ShloMosaic.ValueIdx

/-- The class label of each of the 512 prototypes, as the programs compute it on the host: the floored remainder of
    the prototype's number by 128 (the truncated remainder, moved by the divisor where its sign differs from the
    divisor's; a divisor 0 replaced by 1). -/
def protoLabels (h : (⟨0, ![]⟩ : Shape).BroadcastsInDim ⟨1, ![512]⟩ (![] : Fin 0 → Fin 1)) : IVec ⟨1, ![512]⟩ 32 :=
  let n : IVec ⟨0, ![]⟩ 32 := id (constantI ⟨0, ![]⟩ 32 128#32)
  let d : IVec ⟨0, ![]⟩ 32 := select (cmpi .eq n (constantI ⟨0, ![]⟩ 32 0#32)) (constantI ⟨0, ![]⟩ 32 1#32) n
  let r : IVec ⟨1, ![512]⟩ 32 := Host.remsi (iotaInDim ⟨1, ![512]⟩ 32 0) (broadcastInDim ⟨1, ![512]⟩ ![] h d)
  select
    (andi
      (cmpi .ne (cmpi .slt r (broadcastInDim ⟨1, ![512]⟩ ![] h (constantI ⟨0, ![]⟩ 32 0#32)))
        (broadcastInDim ⟨1, ![512]⟩ ![] h (cmpi .slt d (constantI ⟨0, ![]⟩ 32 0#32))))
      (cmpi .ne r (broadcastInDim ⟨1, ![512]⟩ ![] h (constantI ⟨0, ![]⟩ 32 0#32))))
    (addi r (broadcastInDim ⟨1, ![512]⟩ ![] h d))
    r

/-- The expanded squared distance between a sample row and a prototype row: |x|² + |p|² - 2·⟨x, p⟩, each squared
    norm a sum started from the zero word. -/
def dist (xr pr : Fin 64 → EReal) : EReal :=
  ((Ideal.ofBits .f32 0x00000000#32 + ∑ k : Fin 64, xr k * xr k)
      + (Ideal.ofBits .f32 0x00000000#32 + ∑ k : Fin 64, pr k * pr k))
    - Ideal.ofBits .f32 0x40000000#32 * ∑ k : Fin 64, xr k * pr k

/-- The distance from a sample row to the nearest prototype whose label is the sample's; +∞ if there is none. -/
def nearSame (lab : Fin 512 → BitVec 32) (P : Fin 512 → Fin 64 → EReal) (xr : Fin 64 → EReal) (yr : BitVec 32) : EReal :=
  (Finset.univ : Finset (Fin 512)).fold min ⊤ fun j => Scalar.select (IntOp.cmpi .eq (lab j) yr) (dist xr (P j)) ⊤

/-- The distance from a sample row to the nearest prototype whose label is not the sample's; +∞ if there is none. -/
def nearOther (lab : Fin 512 → BitVec 32) (P : Fin 512 → Fin 64 → EReal) (xr : Fin 64 → EReal) (yr : BitVec 32) : EReal :=
  (Finset.univ : Finset (Fin 512)).fold min ⊤ fun j => Scalar.select (IntOp.cmpi .eq (lab j) yr) ⊤ (dist xr (P j))

/-- The logistic function 1 / (1 + exp (-(1 · μ))) of the relative difference μ = (d₁ - d₂) / (d₁ + d₂ + ε). -/
def sigm (d1 d2 : EReal) : EReal :=
  Ideal.div (Ideal.ofBits .f32 0x3F800000#32)
    (Ideal.ofBits .f32 0x3F800000#32
      + Ideal.exp (-(Ideal.ofBits .f32 0x3F800000#32 * Ideal.div (d1 - d2) ((d1 + d2) + Ideal.ofBits .f32 0x3089705F#32))))

/-- One sample's loss term. -/
def rowLoss (lab : Fin 512 → BitVec 32) (P : Fin 512 → Fin 64 → EReal) (xr : Fin 64 → EReal) (yr : BitVec 32) : EReal :=
  sigm (nearSame lab P xr yr) (nearOther lab P xr yr)

/-- The mean over the 262144 samples of their loss terms: the sum started from the zero word, divided by the word of
    262144. -/
def meanLoss (lab : Fin 512 → BitVec 32) (x : (⟨2, ![262144, 64]⟩ : Shape).Idx → EReal)
    (p : (⟨2, ![512, 64]⟩ : Shape).Idx → EReal) (y : (⟨1, ![262144]⟩ : Shape).Idx → BitVec 32) : EReal :=
  Ideal.div
    (Ideal.ofBits .f32 0x00000000#32
      + ∑ i : Fin 262144, rowLoss lab (fun j k => p (ix2 j k)) (fun k => x (ix2 i k)) (y (ix1 i)))
    (Ideal.ofBits .f32 0x48800000#32)

/-- The word 0x7F800000 is +∞. -/
theorem pinf_word : Ideal.ofBits .f32 0x7F800000#32 = (⊤ : EReal) := by
  simp [Ideal.ofBits, Ideal.ieee]

end Cert.Glvq

end
-- ==== Proof.RowTerm.lean ====
/-
  One row's term, as the kernel body computes it from its blocks, is the specification's loss term of that sample.

  The body's distance entry lacks the leading zero word of the specification's first squared norm (a kernel sum starts
  from nothing, a host sum from its initial value), fills the masked-out entries with the named constant that stands
  for +∞, starts its minima from the +∞ word, and negates by subtracting from the zero word. Over the extended reals
  the zero word is 0, the named constant and the +∞ word are ⊤, and 0 - z = -z, so the two spellings agree.
-/
import proofs.«149939_j49520972923161_1_alg».proof.Proof.PayMin
import proofs.«149939_j49520972923161_1_alg».proof.Proof.PaySum
import proofs.«149939_j49520972923161_1_alg».proof.Proof.Spec
import Idealize.ShloMosaic.PureOps.IdealRules

noncomputable section

namespace Cert.KernelIdeal.Pay

open Cert.KernelIdeal Cert.KernelIdeal.Gen Idealize.ShloMosaic Idealize.ShloMosaic.ValueIdx

/-- The named fill value is +∞ over the extended reals, by the certificate's table. -/
theorem pos_big : Named.named (F := Ideal) κ "pos_big" (φ := .f32) 0x7149F2CA#32 = (⊤ : EReal) :=
  IdealRules.named_const.ideal_named_scalar _ _ _ _ rfl

/-- The body's term of the difference and the padded sum of the two minima is the logistic function of the
    specification: subtracting from the zero word is negation. -/
theorem term_eq_sigm (d1 d2 : EReal) :
    term (d1 - d2) ((d1 + d2) + Ideal.ofBits .f32 0x3089705F#32) = Cert.Glvq.sigm d1 d2 := by
  unfold term Cert.Glvq.sigm
  rw [Ideal.ofBits_zero_f32, zero_sub]

variable (x0 : FVec Ideal S2048x64 .f32) (x1 : FVec Ideal S64x512 .bf16) (x2 : FVec Ideal S1x512 .f32)
  (x3 : IVec S1x512 32) (x4 : IVec S2048x1 32)

/-- Row r of a block whose row r is the sample xr with label yr, whose prototype blocks hold the prototypes P
    (transposed), their squared norms and their labels: the body's term for the row is the sample's loss term. -/
theorem rowTerm_eq (lab : Fin 512 → BitVec 32) (P : Fin 512 → Fin 64 → EReal) (xr : Fin 64 → EReal) (yr : BitVec 32)
    (r : Fin 2048) (h0 : ∀ k, x0 (ix2 r k) = xr k) (h1 : ∀ k j, x1 (ix2 k j) = P j k)
    (h2 : ∀ j, x2 (ix2 (0 : Fin 1) j) = Ideal.ofBits .f32 0x00000000#32 + ∑ k : Fin 64, P j k * P j k)
    (h3 : ∀ j, x3 (ix2 (0 : Fin 1) j) = lab j) (h4 : x4 (ix2 r (0 : Fin 1)) = yr) :
    term (k0_pay8 (F := Ideal) x0 x1 x2 x3 x4 (ix2 r (0 : Fin 1))) (k0_pay9 (F := Ideal) x0 x1 x2 x3 x4 (ix2 r (0 : Fin 1)))
      = Cert.Glvq.rowLoss lab P xr yr := by
  have hd : ∀ j : Fin 512, k0_pay4 (F := Ideal) x0 x1 x2 (ix2 r j) = Cert.Glvq.dist xr (P j) := fun j => by
    rw [pay4_apply, h2]
    unfold Cert.Glvq.dist
    simp only [h0, h1, Ideal.ofBits_zero_f32, zero_add]
  have hm : ∀ j : Fin 512, k0_pay5 (F := Ideal) x3 x4 (ix2 r j) = IntOp.cmpi .eq (lab j) yr := fun j => by
    rw [pay5_apply, h3, h4]
  have h6 : k0_pay6 (F := Ideal) x0 x1 x2 x3 x4 (ix2 r (0 : Fin 1)) = Cert.Glvq.nearSame lab P xr yr := by
    rw [pay6_apply]
    unfold Cert.Glvq.nearSame
    simp only [hd, hm, pos_big, Cert.Glvq.pinf_word]
  have h7 : k0_pay7 (F := Ideal) x0 x1 x2 x3 x4 (ix2 r (0 : Fin 1)) = Cert.Glvq.nearOther lab P xr yr := by
    rw [pay7_apply]
    unfold Cert.Glvq.nearOther
    simp only [hd, hm, pos_big, Cert.Glvq.pinf_word]
  rw [pay8_apply, pay9_apply, h6, h7, term_eq_sigm]
  rfl

end Cert.KernelIdeal.Pay

end
-- ==== Proof.Blocks.lean ====
/-
  The windows' blocks at a grid point, read at an index of the array the window stages.

  Point t of the grid works on the block of 2048 consecutive samples starting at row 2048·t: the samples' window and the
  samples' labels' window move with t; the three prototype windows show their whole array at every point.
-/
import proofs.«149939_j49520972923161_1_alg».proof.Proof.Gen.KernelIdeal.Frame
import Idealize.ShloMosaic.Lib.Pipeline.Value

noncomputable section

open Idealize.ShloMosaic Idealize.ShloMosaic.TcCoe Idealize.SL.Sem

namespace Cert.KernelIdeal.Blocks

open Cert.KernelIdeal Cert.KernelIdeal.Gen

variable {F : FTy → Type} [FloatOps F] [Named F]
variable (m : (ℓ : Loc nD τ sig) → Buf (Elt F) ℓ)

/-- Where each window's block sits at point t, in blocks: the moving windows at row block t, the others at the origin. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)

/-- Entry j of the samples' block at point t is the samples' entry in row 2048·t + j₀, column j₁. -/
theorem iblk0_apply (c : Dev nD) (t : Fin cfg0.N) (j : S2048x64.Idx) (i : S262144x64.Idx)
    (h0 : (i 0).val = 2048 * t.val + (j 0).val) (h1 : (i 1).val = (j 1).val) :
    (iblk m c 0 t : Vec F S2048x64 .f32) j = V m c main_arg0 i := by
  unfold iblk
  rw [View.read_apply]
  show V m c main_arg0 _ = V m c main_arg0 i
  refine congrArg _ (funext fun a => Fin.ext ?_)
  match a with
  | ⟨0, _⟩ => show win0_0.index t 0 * 2048 + 1 * (j 0).val = (i 0).val; rw [(idx0 t).1]; omega
  | ⟨1, _⟩ => show win0_0.index t 1 * 64 + 1 * (j 1).val = (i 1).val; rw [(idx0 t).2]; omega

/-- The transposed prototypes' block is the whole array, at every point. -/
theorem iblk1_apply (c : Dev nD) (t : Fin cfg0.N) (j : S64x512.Idx) :
    (iblk m c 1 t : Vec F S64x512 .bf16) j = V m c main_v7 j := by
  unfold iblk
  rw [View.read_apply]
  show V m c main_v7 _ = V m c main_v7 j
  refine congrArg _ (funext fun a => Fin.ext ?_)
  match a with
  | ⟨0, _⟩ => show win0_1.index t 0 * 64 + 1 * (j 0).val = (j 0).val; rw [(idx1 t).1]; omega
  | ⟨1, _⟩ => show win0_1.index t 1 * 512 + 1 * (j 1).val = (j 1).val; rw [(idx1 t).2]; omega

/-- The squared norms' block is the whole row, at every point. -/
theorem iblk2_apply (c : Dev nD) (t : Fin cfg0.N) (j : S1x512.Idx) :
    (iblk m c 2 t : Vec F S1x512 .f32) j = V m c main_v5 j := by
  unfold iblk
  rw [View.read_apply]
  show V m c main_v5 _ = V m c main_v5 j
  refine congrArg _ (funext fun a => Fin.ext ?_)
  match a with
  | ⟨0, _⟩ => show win0_2.index t 0 * 1 + 1 * (j 0).val = (j 0).val; rw [(idx2 t).1]; omega
  | ⟨1, _⟩ => show win0_2.index t 1 * 512 + 1 * (j 1).val = (j 1).val; rw [(idx2 t).2]; omega

/-- The prototypes' labels' block is the whole row, at every point. -/
theorem iblk3_apply (c : Dev nD) (t : Fin cfg0.N) (j : S1x512.Idx) :
    (iblk m c 3 t : Vec F S1x512 .i32) j = V m c main_v2 j := by
  unfold iblk
  rw [View.read_apply]
  show V m c main_v2 _ = V m c main_v2 j
  refine congrArg _ (funext fun a => Fin.ext ?_)
  match a with
  | ⟨0, _⟩ => show win0_3.index t 0 * 1 + 1 * (j 0).val = (j 0).val; rw [(idx3 t).1]; omega
  | ⟨1, _⟩ => show win0_3.index t 1 * 512 + 1 * (j 1).val = (j 1).val; rw [(idx3 t).2]; omega

/-- Entry j of the samples' labels' block at point t is the label column's entry in row 2048·t + j₀. -/
theorem iblk4_apply (c : Dev nD) (t : Fin cfg0.N) (j : S2048x1.Idx) (i : S262144x1.Idx)
    (h0 : (i 0).val = 2048 * t.val + (j 0).val) (h1 : (i 1).val = (j 1).val) :
    (iblk m c 4 t : Vec F S2048x1 .i32) j = V m c main_v8 i := by
  unfold iblk
  rw [View.read_apply]
  show V m c main_v8 _ = V m c main_v8 i
  refine congrArg _ (funext fun a => Fin.ext ?_)
  match a with
  | ⟨0, _⟩ => show win0_4.index t 0 * 2048 + 1 * (j 0).val = (i 0).val; rw [(idx4 t).1]; omega
  | ⟨1, _⟩ => show win0_4.index t 1 * 1 + 1 * (j 1).val = (i 1).val; rw [(idx4 t).2]; omega

end Cert.KernelIdeal.Blocks

end
-- ==== Proof.LibHostCalls.lean ====
/-
  Values passed through a called function's buffers, and the host's exponential and logarithm read at an entry.

  A host function that the program calls (an outlined relu, softmax, log-softmax …) runs its operations on buffers
  typed by the tensor values they hold: every value written into such a buffer is carried along the equation
  "the buffer's type is the value's type", and carried back when the next operation reads it. The two transports
  cancel: what is read back is what was written (`ofBuf_toBuf`). Rewriting with this lemma first leaves the called
  function's operations applied to one another directly, as the program's own top-level operations are.

  Over the extended reals the host's exponential and logarithm act entry by entry (`hostExp_apply`, `hostLog_apply`):
  stated as equations to rewrite with, so that a goal is never compared against the logarithm by unfolding it.
-/
import Idealize.ShloMosaic.Lib.StableHlo
import Idealize.ShloMosaic.PureOps.Ideal

noncomputable section

namespace Cert.Lib.HostCalls

open Idealize.ShloMosaic Idealize.ShloMosaic.StableHlo

/-- A value carried into a called function's buffer and read back out of it is the value. -/
theorem ofBuf_toBuf {sig : RefSig} {Val : EltTy → Type} {T : BufTy} (x : TRef sig T) (v : T.Contents Val) :
    x.ofBuf (x.toBuf v) = v := by
  obtain ⟨r, h, h1, h2⟩ := x
  subst h
  rfl

/-- The host's logarithm at an entry. -/
theorem hostLog_apply {s : Shape} {φ : FTy} (x : FVec Ideal s φ) (i : s.Idx) : Host.log x i = Ideal.log (x i) := rfl

/-- The host's exponential at an entry. -/
theorem hostExp_apply {s : Shape} {φ : FTy} (x : FVec Ideal s φ) (i : s.Idx) : Host.exp x i = Ideal.exp (x i) := rfl

end Cert.Lib.HostCalls

end
-- ==== Proof.HostSide.lean ====
/-
  What the region finds in the arrays its windows stage: the host operations before the launch, read back.

  Before the launch the program forms, on the host, the prototypes' labels as a row [1, 512], the prototypes' squared
  norms as a row [1, 512], the transposed prototypes [64, 512] (rounded to the matrix unit's input format, which is
  the identity over the extended reals) and the samples' labels as a column [262144, 1]. Each lemma states one of
  these arrays as the composed pure term of the launch arguments.
-/
import proofs.«149939_j49520972923161_1_alg».proof.Proof.Gen.KernelIdeal.Frame
import proofs.«149939_j49520972923161_1_alg».proof.Proof.Spec
import proofs.«149939_j49520972923161_1_alg».proof.Proof.LibHostCalls
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.StableHlo

namespace Cert.KernelIdeal.HostSide

open Cert.KernelIdeal Cert.KernelIdeal.Gen

variable (m : (ℓ : Loc nD τ sig) → Buf (Elt Ideal) ℓ)

/-- The samples' labels as a column. -/
theorem V_v8 (c : Dev nD) : (V m c main_v8 : S262144x1.Idx → BitVec 32)
    = shapeCast S262144x1 (m ((c : Thread nD τ).loc main_arg2)) Facts₀.shapeCasts_S262144_S262144x1 := by
  dsimp only [Gen.V, Gen.V0]
  simp only [Gen.hostOps0, Gen.hostOps0_1, Gen.hostOps0_2, List.flatten_cons, List.flatten_nil, List.append_nil, List.cons_append, List.nil_append]
  after_results
  rfl

/-- The transposed prototypes. -/
theorem V_v7 (c : Dev nD) : (V m c main_v7 : S64x512.Idx → EReal)
    = truncf (F := Ideal) .bf16 (transpose S64x512 [1, 0] (m ((c : Thread nD τ).loc main_arg1)) Facts₀.transposes_S512x64_S64x512_1_0)
        Facts₀.bitsLt_bf16_f32 := by
  dsimp only [Gen.V, Gen.V0]
  simp only [Gen.hostOps0, Gen.hostOps0_1, Gen.hostOps0_2, List.flatten_cons, List.flatten_nil, List.append_nil, List.cons_append, List.nil_append]
  after_results

/-- The prototypes' squared norms as a row. -/
theorem V_v5 (c : Dev nD) : (V m c main_v5 : S1x512.Idx → EReal)
    = shapeCast S1x512
        (Host.reduceAdd (F := Ideal) (mulf (F := Ideal) (m ((c : Thread nD τ).loc main_arg1)) (m ((c : Thread nD τ).loc main_arg1)))
          (constant (F := Ideal) S_ .f32 0x00000000#32) Facts₀.reducesTo_S512x64_S512_d1 Facts₀.h_S_)
        Facts₀.shapeCasts_S512_S1x512 := by
  dsimp only [Gen.V, Gen.V0]
  simp only [Gen.hostOps0, Gen.hostOps0_1, Gen.hostOps0_2, List.flatten_cons, List.flatten_nil, List.append_nil, List.cons_append, List.nil_append]
  after_results
  rfl

set_option maxHeartbeats 2000000 in
/-- The prototypes' labels as a row: the called remainder function's operations composed. -/
theorem V_v2 (c : Dev nD) : (V m c main_v2 : S1x512.Idx → BitVec 32)
    = shapeCast S1x512 (Cert.Glvq.protoLabels Facts₀.bcast_S_S512) Facts₀.shapeCasts_S512_S1x512 := by
  dsimp only [Gen.V, Gen.V0]
  simp only [Gen.hostOps0, Gen.hostOps0_1, Gen.hostOps0_2, List.flatten_cons, List.flatten_nil, List.append_nil, List.cons_append, List.nil_append]
  after_results_simp
  simp only [Cert.Lib.HostCalls.ofBuf_toBuf]
  rfl

end Cert.KernelIdeal.HostSide

end
-- ==== Proof.LibHostColumns.lean ====
/-
  A host row sum and its column, read at an index.

  On the host, `sum(x, axis = -1, keepdims = True)` of an [a, b] array is a `reduce` with an add body over the last
  axis, from an initial scalar, followed by a `broadcast_in_dim` that sets the [a] vector of sums as a column [a, 1].
  Over the extended reals:
  • `hostRowSum_apply`: the reduce, read at row `p`, is the initial value plus the finite sum over `k < b` of the array
    at `(p, k)` — the reduced index with the summed coordinate put back is `(p, k)`;
  • `broadcastInDim_a_a1_apply`: the vector set as a column reads, at `(p, u)`, the vector at `p` (for any entry type).
-/
import Idealize.ShloMosaic.Lib.Pipeline.Value
import Idealize.ShloMosaic.Lib.ValueIdx
import Idealize.ShloMosaic.PureOps.Ideal.Laws

noncomputable section

namespace Cert.Lib.HostColumns

open Idealize.ShloMosaic Idealize.ShloMosaic.ValueIdx

/-- The host's sum of an [a, b] array along its last axis, from the initial scalar `init`, read at row `p`. -/
theorem hostRowSum_apply {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x init h' hu (ix1 p) = init ix0 + ∑ k : Fin b, x (ix2 p k) := by
  unfold Host.reduceAdd
  rw [Ideal.hostReduceAdd_def, Ideal.hostReduceAdd_single h' h]
  refine congrArg₂ (· + ·) (congrArg init (funext fun d => d.elim0)) (Finset.sum_congr rfl fun k _ => ?_)
  exact congrArg x (funext fun d => Fin.ext (by
    match d with
    | ⟨0, _⟩ => rfl
    | ⟨1, _⟩ => rfl))

/-- A vector [a] set as a column [a, 1] by `broadcast_in_dim` along axis 0: entry `(p, u)` is the vector's entry `p`. -/
theorem broadcastInDim_a_a1_apply {α : Type} {a : ℕ} (x : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h x (ix2 p u) = x (ix1 p) := by
  refine broadcastInDim_apply _ h x (ix2 p u) (ix1 p) fun d => ?_
  match d with
  | ⟨0, _⟩ =>
    show p.val = if a = 1 then 0 else p.val
    split
    · have := p.isLt; omega
    · rfl

end Cert.Lib.HostColumns

end
-- ==== Proof.LibBlockSum.lean ====
/-
  A sum over a·b rows taken block by block.

  The rows 0 … a·b - 1 fall into a consecutive blocks of b rows: block t holds the rows b·t + p for p < b.  Every row is
  b·t + p for exactly one pair (t, p) with t < a and p < b, so summing block by block — the blocks counted by a natural
  number below a — is summing over all the rows.
-/
import Mathlib.Algebra.BigOperators.Fin
import Mathlib.Algebra.BigOperators.Group.Finset.Basic
import Mathlib.Logic.Equiv.Fin.Basic
import Mathlib.Tactic.Ring

namespace BlockSum

/-- Row p of block t lies below a·b. -/
theorem block_lt {a b t : ℕ} (h : t < a) (p : Fin b) : b * t + p.val < a * b := by
  have hp := p.isLt
  calc b * t + p.val < b * t + b := by omega
    _ = b * (t + 1) := by ring
    _ ≤ b * a := Nat.mul_le_mul_left b h
    _ = a * b := Nat.mul_comm b a

/-- The sum over the blocks of the sums within each block is the sum over all the rows. -/
theorem sum_blocks {M : Type*} [AddCommMonoid M] (a b : ℕ) (g : Fin (a * b) → M) :
    ∑ t ∈ Finset.range a, (if h : t < a then ∑ p : Fin b, g ⟨b * t + p.val, block_lt h p⟩ else 0)
      = ∑ R : Fin (a * b), g R := by
  rw [Finset.sum_range]
  calc ∑ i : Fin a, (if h : (i : ℕ) < a then ∑ p : Fin b, g ⟨b * (i : ℕ) + p.val, block_lt h p⟩ else 0)
      = ∑ i : Fin a, ∑ p : Fin b, g ⟨b * (i : ℕ) + p.val, block_lt i.isLt p⟩ :=
        Finset.sum_congr rfl fun i _ => dif_pos i.isLt
    _ = ∑ x : Fin a × Fin b, g ⟨b * (x.1 : ℕ) + x.2.val, block_lt x.1.isLt x.2⟩ :=
        (Fintype.sum_prod_type' fun (i : Fin a) (p : Fin b) => g ⟨b * (i : ℕ) + p.val, block_lt i.isLt p⟩).symm
    _ = ∑ R : Fin (a * b), g R :=
        Fintype.sum_equiv finProdFinEquiv _ _ fun x => congrArg g (Fin.ext (by
          show b * (x.1 : ℕ) + x.2.val = (finProdFinEquiv x : ℕ)
          rw [finProdFinEquiv_apply_val]
          exact Nat.add_comm _ _))

/-- Eight blocks of 1024 rows are the 8192 rows. -/
theorem sum_blocks_8_1024 {M : Type*} [AddCommMonoid M] (g : Fin 8192 → M) :
    ∑ t ∈ Finset.range 8, (if h : t < 8 then ∑ p : Fin 1024, g ⟨1024 * t + p.val, by omega⟩ else 0)
      = ∑ R : Fin 8192, g R :=
  sum_blocks 8 1024 g

end BlockSum
-- ==== Proof.KernelLoss.lean ====
/-
  The kernel program's result is the specification's mean loss of the launch arguments.

  Point t of the grid sees the samples 2048·t … 2048·t + 2047 and, at every point, all the prototypes: their transpose,
  their squared norms and their labels, as the host lines before the launch left them. So the term the body forms for
  row r of point t is the loss term of sample 2048·t + r, the partial sum of point t is the sum of the terms of its 2048
  samples, and the running sum after the last point — the partial sums added in point order to the zero word — is the zero
  word plus the sum over all 262144 samples: a finite sum over the extended reals may be taken block by block.
-/
import proofs.«149939_j49520972923161_1_alg».proof.Proof.Accum
import proofs.«149939_j49520972923161_1_alg».proof.Proof.RowTerm
import proofs.«149939_j49520972923161_1_alg».proof.Proof.Blocks
import proofs.«149939_j49520972923161_1_alg».proof.Proof.HostSide
import proofs.«149939_j49520972923161_1_alg».proof.Proof.LibHostColumns
import proofs.«149939_j49520972923161_1_alg».proof.Proof.LibBlockSum
import Idealize.ShloMosaic.Lib.ValueLayout

noncomputable section

open Idealize.ShloMosaic Idealize.ShloMosaic.TcCoe Idealize.SL.Sem

namespace Cert.KernelIdeal.Loss

open Cert.KernelIdeal Cert.KernelIdeal.Gen Idealize.ShloMosaic.ValueIdx

variable (m : (ℓ : Loc nD τ sig) → Buf (Elt Ideal) ℓ)

/-- The launch arguments on core c: the samples, the prototypes, the samples' labels. -/
abbrev xs (c : Dev nD) : S262144x64.Idx → EReal := m ((c : Thread nD τ).loc main_arg0)
abbrev ps (c : Dev nD) : S512x64.Idx → EReal := m ((c : Thread nD τ).loc main_arg1)
abbrev ys (c : Dev nD) : S262144.Idx → BitVec 32 := m ((c : Thread nD τ).loc main_arg2)

/-- The prototypes' labels, by prototype number. -/
abbrev lab : Fin 512 → BitVec 32 := fun j => Cert.Glvq.protoLabels Facts₀.bcast_S_S512 (ix1 j)

/-- Row r of the samples' block at point t is sample R = 2048·t + r. -/
theorem blk0 (c : Dev nD) (t : Fin cfg0.N) (r : Fin 2048) (R : Fin 262144) (hR : R.val = 2048 * t.val + r.val) (k : Fin 64) :
    (iblk m c 0 t : Vec Ideal S2048x64 .f32) (ix2 r k) = xs m c (ix2 R k) :=
  (Blocks.iblk0_apply m c t (ix2 r k) (ix2 R k) hR rfl).trans (congrFun (V_main_arg0 m c) _)

/-- Entry (k, j) of the transposed prototypes' block is coordinate k of prototype j. -/
theorem blk1 (c : Dev nD) (t : Fin cfg0.N) (k : Fin 64) (j : Fin 512) :
    (iblk m c 1 t : Vec Ideal S64x512 .bf16) (ix2 k j) = ps m c (ix2 j k) :=
  (Blocks.iblk1_apply m c t (ix2 k j)).trans ((congrFun (HostSide.V_v7 m c) _).trans
    (transpose_ix2_apply (ps m c) _ k j))

/-- Entry j of the squared norms' block is the zero word plus the sum of the squares of prototype j's coordinates. -/
theorem blk2 (c : Dev nD) (t : Fin cfg0.N) (j : Fin 512) :
    (iblk m c 2 t : Vec Ideal S1x512 .f32) (ix2 (0 : Fin 1) j)
      = Ideal.ofBits .f32 0x00000000#32
          + ∑ k : Fin 64, ps m c (ix2 j k) * ps m c (ix2 j k) :=
  (Blocks.iblk2_apply m c t (ix2 (0 : Fin 1) j)).trans ((congrFun (HostSide.V_v5 m c) _).trans
    ((shapeCast_a_1a_apply _ _ (0 : Fin 1) j).trans
      (Cert.Lib.HostColumns.hostRowSum_apply (mulf (F := Ideal) (ps m c) (ps m c)) _ _
        (by decide : (⟨2, ![512, 64]⟩ : Shape).Reduces [1] ⟨1, ![512]⟩) _ j)))

/-- Entry j of the labels' block is prototype j's label. -/
theorem blk3 (c : Dev nD) (t : Fin cfg0.N) (j : Fin 512) :
    (iblk m c 3 t : Vec Ideal S1x512 .i32) (ix2 (0 : Fin 1) j) = lab j :=
  (Blocks.iblk3_apply m c t (ix2 (0 : Fin 1) j)).trans ((congrFun (HostSide.V_v2 m c) _).trans
    (shapeCast_a_1a_apply _ _ (0 : Fin 1) j))

/-- Row r of the samples' labels' block at point t is the label of sample R = 2048·t + r. -/
theorem blk4 (c : Dev nD) (t : Fin cfg0.N) (r : Fin 2048) (R : Fin 262144) (hR : R.val = 2048 * t.val + r.val) :
    (iblk m c 4 t : Vec Ideal S2048x1 .i32) (ix2 r (0 : Fin 1)) = ys m c (ix1 R) :=
  (Blocks.iblk4_apply m c t (ix2 r (0 : Fin 1)) (ix2 R (0 : Fin 1)) hR rfl).trans ((congrFun (HostSide.V_v8 m c) _).trans
    (Cert.Lib.Keepdims.shapeCast_a_a1_apply _ _ R (0 : Fin 1)))

/-- The loss term of sample R. -/
abbrev sampleLoss (c : Dev nD) (R : Fin (128 * 2048)) : EReal :=
  Cert.Glvq.rowLoss lab (fun j k => ps m c (ix2 j k))
    (fun k => xs m c (ix2 (R : Fin 262144) k)) (ys m c (ix1 (R : Fin 262144)))

/-- Point t's partial sum is the sum of the loss terms of its 2048 samples. -/
theorem part_eq (c : Dev nD) (t : ℕ) (h : t < 128) :
    Accum.partN m c t = ∑ p : Fin 2048, sampleLoss m c ⟨2048 * t + p.val, BlockSum.block_lt h p⟩ := by
  have hN : cfg0.N = 128 := N_0
  have ht : t < cfg0.N := by omega
  unfold Accum.partN
  rw [dif_pos ht]
  unfold Accum.part
  refine Finset.sum_congr rfl fun r _ => ?_
  exact Pay.rowTerm_eq _ _ _ _ _ lab _ _ _ r
    (fun k => blk0 m c ⟨t, ht⟩ r ⟨2048 * t + r.val, BlockSum.block_lt h r⟩ rfl k)
    (fun k j => blk1 m c ⟨t, ht⟩ k j) (fun j => blk2 m c ⟨t, ht⟩ j) (fun j => blk3 m c ⟨t, ht⟩ j)
    (blk4 m c ⟨t, ht⟩ r ⟨2048 * t + r.val, BlockSum.block_lt h r⟩ rfl)

/-- The output entry is the mean loss of the launch arguments. -/
theorem out_eq (c : Dev nD) (h127 : 127 < cfg0.N) :
    k0_pay2 (F := Ideal) (Accum.acc m c 127 h127) (ix2 (0 : Fin 1) (0 : Fin 1))
      = Cert.Glvq.meanLoss lab (xs m c) (ps m c) (ys m c) := by
  rw [Pay.pay2_apply, Accum.acc_apply]
  unfold Cert.Glvq.meanLoss
  refine congrArg₂ Ideal.div (congrArg₂ (· + ·) rfl ?_) rfl
  have e : ∑ t ∈ Finset.range 128, Accum.partN m c t
      = ∑ t ∈ Finset.range 128, (if h : t < 128 then ∑ p : Fin 2048, sampleLoss m c ⟨2048 * t + p.val, BlockSum.block_lt h p⟩ else 0) :=
    Finset.sum_congr rfl fun t ht => by
      have h : t < 128 := Finset.mem_range.mp ht
      rw [dif_pos h, part_eq m c t h]
  exact e.trans (BlockSum.sum_blocks 128 2048 (sampleLoss m c))

end Cert.KernelIdeal.Loss

end
-- ==== Proof.RefRun.lean ====
/-
  The reference program's @main as one list of its 76 host operations, and its run.

  @main calls three module-local functions; a call means the callee's body run on the call's own buffers, so each
  call is listed as the callee's operations at the call site: the 21 operations of the floored remainder (one of
  them the scalar select of the function it calls in turn), and the two operations of each masked select. With
  sequencing reassociated, @main is the straight line of these operations, and the library's run of a straight line
  applies: every weakly fair execution terminates, each buffer ending at the fold of the operations' results over
  the launch contents.
-/
import proofs.«149939_j49520972923161_1_alg».proof.Proof.Gen.ReferenceIdeal
import Idealize.ShloMosaic.Lib.StableHlo.Run
import Idealize.ShloMosaic.Lib.Pipeline.Regions

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- The 76 operations of @main, in order, each called function's operations in the place of its call. -/
abbrev ops : List (HloOp τ sig (Elt F)) :=
  nullary main_v0 (iotaInDim S512 32 0) ::
  nullary main_c (constantI S_ 32 128#32) ::
  TRef.unary (.of main_c : TRef sig ⟨S_, .i32⟩) main_call0.v0 id ::
  TRef.nullary main_call0.c (constantI S_ 32 0#32) ::
  TRef.binary main_call0.v0 main_call0.c main_call0.v1 (cmpi .eq) ::
  TRef.nullary main_call0.c_0 (constantI S_ 32 1#32) ::
  TRef.ternary main_call0.v1 main_call0.c_0 main_call0.v0 main_call0.call0.v0 select ::
  TRef.unary main_call0.call0.v0 main_call0.v3 (broadcastInDim S512 ![] bcast_S_S512) ::
  TRef.binary (.of main_v0 : TRef sig ⟨S512, .i32⟩) main_call0.v3 main_call0.v4 Host.remsi ::
  TRef.nullary main_call0.c_1 (constantI S_ 32 0#32) ::
  TRef.unary main_call0.c_1 main_call0.v5 (broadcastInDim S512 ![] bcast_S_S512) ::
  TRef.binary main_call0.v4 main_call0.v5 main_call0.v6 (cmpi .ne) ::
  TRef.nullary main_call0.c_2 (constantI S_ 32 0#32) ::
  TRef.unary main_call0.c_2 main_call0.v7 (broadcastInDim S512 ![] bcast_S_S512) ::
  TRef.binary main_call0.v4 main_call0.v7 main_call0.v8 (cmpi .slt) ::
  TRef.nullary main_call0.c_3 (constantI S_ 32 0#32) ::
  TRef.binary main_call0.call0.v0 main_call0.c_3 main_call0.v9 (cmpi .slt) ::
  TRef.unary main_call0.v9 main_call0.v10 (broadcastInDim S512 ![] bcast_S_S512) ::
  TRef.binary main_call0.v8 main_call0.v10 main_call0.v11 (cmpi .ne) ::
  TRef.binary main_call0.v11 main_call0.v6 main_call0.v12 andi ::
  TRef.unary main_call0.call0.v0 main_call0.v13 (broadcastInDim S512 ![] bcast_S_S512) ::
  TRef.binary main_call0.v4 main_call0.v13 main_call0.v14 addi ::
  TRef.ternary main_call0.v12 main_call0.v14 main_call0.v4 main_call0.v15 select ::
  binary main_arg0 main_arg0 main_v2 (mulf : (⟨S262144x64, .f32⟩ : BufTy).Contents (Elt F) → (⟨S262144x64, .f32⟩ : BufTy).Contents (Elt F) → (⟨S262144x64, .f32⟩ : BufTy).Contents (Elt F)) ::
  nullary main_cst (constant S_ .f32 0x00000000#32) ::
  binary main_v2 main_cst main_v3 ((fun x v => Host.reduceAdd x v reducesTo_S262144x64_S262144_d1 h_S_) : (⟨S262144x64, .f32⟩ : BufTy).Contents (Elt F) → (⟨S_, .f32⟩ : BufTy).Contents (Elt F) → (⟨S262144, .f32⟩ : BufTy).Contents (Elt F)) ::
  unary main_v3 main_v4 (broadcastInDim S262144x1 ![0] bcast_S262144_S262144x1_0 : (⟨S262144, .f32⟩ : BufTy).Contents (Elt F) → (⟨S262144x1, .f32⟩ : BufTy).Contents (Elt F)) ::
  binary main_arg1 main_arg1 main_v5 (mulf : (⟨S512x64, .f32⟩ : BufTy).Contents (Elt F) → (⟨S512x64, .f32⟩ : BufTy).Contents (Elt F) → (⟨S512x64, .f32⟩ : BufTy).Contents (Elt F)) ::
  nullary main_cst_0 (constant S_ .f32 0x00000000#32) ::
  binary main_v5 main_cst_0 main_v6 ((fun x v => Host.reduceAdd x v reducesTo_S512x64_S512_d1 h_S_) : (⟨S512x64, .f32⟩ : BufTy).Contents (Elt F) → (⟨S_, .f32⟩ : BufTy).Contents (Elt F) → (⟨S512, .f32⟩ : BufTy).Contents (Elt F)) ::
  unary main_v6 main_v7 (broadcastInDim S1x512 ![1] bcast_S512_S1x512_1 : (⟨S512, .f32⟩ : BufTy).Contents (Elt F) → (⟨S1x512, .f32⟩ : BufTy).Contents (Elt F)) ::
  unary main_v4 main_v8 (broadcastInDim S262144x512 ![0, 1] bcast_S262144x1_S262144x512_0_1 : (⟨S262144x1, .f32⟩ : BufTy).Contents (Elt F) → (⟨S262144x512, .f32⟩ : BufTy).Contents (Elt F)) ::
  unary main_v7 main_v9 (broadcastInDim S262144x512 ![0, 1] bcast_S1x512_S262144x512_0_1 : (⟨S1x512, .f32⟩ : BufTy).Contents (Elt F) → (⟨S262144x512, .f32⟩ : BufTy).Contents (Elt F)) ::
  binary main_v8 main_v9 main_v10 (addf : (⟨S262144x512, .f32⟩ : BufTy).Contents (Elt F) → (⟨S262144x512, .f32⟩ : BufTy).Contents (Elt F) → (⟨S262144x512, .f32⟩ : BufTy).Contents (Elt F)) ::
  unary main_arg1 main_v11 ((transpose S64x512 [1, 0] · transposes_S512x64_S64x512_1_0) : (⟨S512x64, .f32⟩ : BufTy).Contents (Elt F) → (⟨S64x512, .f32⟩ : BufTy).Contents (Elt F)) ::
  binary main_arg0 main_v11 main_v12 ((fun l r => Host.dotGeneral dot_S262144x64_S64x512_S262144x512_1_0_0_1_n_n none l r) : (⟨S262144x64, .f32⟩ : BufTy).Contents (Elt F) → (⟨S64x512, .f32⟩ : BufTy).Contents (Elt F) → (⟨S262144x512, .f32⟩ : BufTy).Contents (Elt F)) ::
  nullary main_cst_1 (constant S_ .f32 0x40000000#32) ::
  unary main_cst_1 main_v13 (broadcastInDim S262144x512 ![] bcast_S_S262144x512 : (⟨S_, .f32⟩ : BufTy).Contents (Elt F) → (⟨S262144x512, .f32⟩ : BufTy).Contents (Elt F)) ::
  binary main_v13 main_v12 main_v14 (mulf : (⟨S262144x512, .f32⟩ : BufTy).Contents (Elt F) → (⟨S262144x512, .f32⟩ : BufTy).Contents (Elt F) → (⟨S262144x512, .f32⟩ : BufTy).Contents (Elt F)) ::
  binary main_v10 main_v14 main_v15 (subf : (⟨S262144x512, .f32⟩ : BufTy).Contents (Elt F) → (⟨S262144x512, .f32⟩ : BufTy).Contents (Elt F) → (⟨S262144x512, .f32⟩ : BufTy).Contents (Elt F)) ::
  unary main_v1 main_v16 (broadcastInDim S1x512 ![1] bcast_S512_S1x512_1 : (⟨S512, .i32⟩ : BufTy).Contents (Elt F) → (⟨S1x512, .i32⟩ : BufTy).Contents (Elt F)) ::
  unary main_arg2 main_v17 (broadcastInDim S262144x1 ![0] bcast_S262144_S262144x1_0 : (⟨S262144, .i32⟩ : BufTy).Contents (Elt F) → (⟨S262144x1, .i32⟩ : BufTy).Contents (Elt F)) ::
  unary main_v16 main_v18 (broadcastInDim S262144x512 ![0, 1] bcast_S1x512_S262144x512_0_1 : (⟨S1x512, .i32⟩ : BufTy).Contents (Elt F) → (⟨S262144x512, .i32⟩ : BufTy).Contents (Elt F)) ::
  unary main_v17 main_v19 (broadcastInDim S262144x512 ![0, 1] bcast_S262144x1_S262144x512_0_1 : (⟨S262144x1, .i32⟩ : BufTy).Contents (Elt F) → (⟨S262144x512, .i32⟩ : BufTy).Contents (Elt F)) ::
  binary main_v18 main_v19 main_v20 (cmpi .eq : (⟨S262144x512, .i32⟩ : BufTy).Contents (Elt F) → (⟨S262144x512, .i32⟩ : BufTy).Contents (Elt F) → (⟨S262144x512, .i1⟩ : BufTy).Contents (Elt F)) ::
  nullary main_cst_2 (constant S_ .f32 0x7F800000#32) ::
  TRef.unary (.of main_cst_2 : TRef sig ⟨S_, .f32⟩) main_call1.v0 (broadcastInDim S262144x512 ![] bcast_S_S262144x512) ::
  TRef.ternary (.of main_v20 : TRef sig ⟨S262144x512, .i1⟩) (.of main_v15 : TRef sig ⟨S262144x512, .f32⟩) main_call1.v0 main_call1.v1 select ::
  nullary main_cst_3 (constant S_ .f32 0x7F800000#32) ::
  binary main_v21 main_cst_3 main_v22 ((fun x v => Host.reduce FloatOps.minimumf x v reducesTo_S262144x512_S262144_d1 h_S_) : (⟨S262144x512, .f32⟩ : BufTy).Contents (Elt F) → (⟨S_, .f32⟩ : BufTy).Contents (Elt F) → (⟨S262144, .f32⟩ : BufTy).Contents (Elt F)) ::
  nullary main_cst_4 (constant S_ .f32 0x7F800000#32) ::
  TRef.unary (.of main_cst_4 : TRef sig ⟨S_, .f32⟩) main_call2.v0 (broadcastInDim S262144x512 ![] bcast_S_S262144x512) ::
  TRef.ternary (.of main_v20 : TRef sig ⟨S262144x512, .i1⟩) main_call2.v0 (.of main_v15 : TRef sig ⟨S262144x512, .f32⟩) main_call2.v1 select ::
  nullary main_cst_5 (constant S_ .f32 0x7F800000#32) ::
  binary main_v23 main_cst_5 main_v24 ((fun x v => Host.reduce FloatOps.minimumf x v reducesTo_S262144x512_S262144_d1 h_S_) : (⟨S262144x512, .f32⟩ : BufTy).Contents (Elt F) → (⟨S_, .f32⟩ : BufTy).Contents (Elt F) → (⟨S262144, .f32⟩ : BufTy).Contents (Elt F)) ::
  binary main_v22 main_v24 main_v25 (subf : (⟨S262144, .f32⟩ : BufTy).Contents (Elt F) → (⟨S262144, .f32⟩ : BufTy).Contents (Elt F) → (⟨S262144, .f32⟩ : BufTy).Contents (Elt F)) ::
  binary main_v22 main_v24 main_v26 (addf : (⟨S262144, .f32⟩ : BufTy).Contents (Elt F) → (⟨S262144, .f32⟩ : BufTy).Contents (Elt F) → (⟨S262144, .f32⟩ : BufTy).Contents (Elt F)) ::
  nullary main_cst_6 (constant S_ .f32 0x3089705F#32) ::
  unary main_cst_6 main_v27 (broadcastInDim S262144 ![] bcast_S_S262144 : (⟨S_, .f32⟩ : BufTy).Contents (Elt F) → (⟨S262144, .f32⟩ : BufTy).Contents (Elt F)) ::
  binary main_v26 main_v27 main_v28 (addf : (⟨S262144, .f32⟩ : BufTy).Contents (Elt F) → (⟨S262144, .f32⟩ : BufTy).Contents (Elt F) → (⟨S262144, .f32⟩ : BufTy).Contents (Elt F)) ::
  binary main_v25 main_v28 main_v29 (Host.divf : (⟨S262144, .f32⟩ : BufTy).Contents (Elt F) → (⟨S262144, .f32⟩ : BufTy).Contents (Elt F) → (⟨S262144, .f32⟩ : BufTy).Contents (Elt F)) ::
  nullary main_cst_7 (constant S_ .f32 0x3F800000#32) ::
  unary main_cst_7 main_v30 (broadcastInDim S262144 ![] bcast_S_S262144 : (⟨S_, .f32⟩ : BufTy).Contents (Elt F) → (⟨S262144, .f32⟩ : BufTy).Contents (Elt F)) ::
  binary main_v30 main_v29 main_v31 (mulf : (⟨S262144, .f32⟩ : BufTy).Contents (Elt F) → (⟨S262144, .f32⟩ : BufTy).Contents (Elt F) → (⟨S262144, .f32⟩ : BufTy).Contents (Elt F)) ::
  unary main_v31 main_v32 (Host.negf : (⟨S262144, .f32⟩ : BufTy).Contents (Elt F) → (⟨S262144, .f32⟩ : BufTy).Contents (Elt F)) ::
  unary main_v32 main_v33 (Host.exp : (⟨S262144, .f32⟩ : BufTy).Contents (Elt F) → (⟨S262144, .f32⟩ : BufTy).Contents (Elt F)) ::
  nullary main_cst_8 (constant S_ .f32 0x3F800000#32) ::
  unary main_cst_8 main_v34 (broadcastInDim S262144 ![] bcast_S_S262144 : (⟨S_, .f32⟩ : BufTy).Contents (Elt F) → (⟨S262144, .f32⟩ : BufTy).Contents (Elt F)) ::
  binary main_v34 main_v33 main_v35 (addf : (⟨S262144, .f32⟩ : BufTy).Contents (Elt F) → (⟨S262144, .f32⟩ : BufTy).Contents (Elt F) → (⟨S262144, .f32⟩ : BufTy).Contents (Elt F)) ::
  nullary main_cst_9 (constant S_ .f32 0x3F800000#32) ::
  unary main_cst_9 main_v36 (broadcastInDim S262144 ![] bcast_S_S262144 : (⟨S_, .f32⟩ : BufTy).Contents (Elt F) → (⟨S262144, .f32⟩ : BufTy).Contents (Elt F)) ::
  binary main_v36 main_v35 main_v37 (Host.divf : (⟨S262144, .f32⟩ : BufTy).Contents (Elt F) → (⟨S262144, .f32⟩ : BufTy).Contents (Elt F) → (⟨S262144, .f32⟩ : BufTy).Contents (Elt F)) ::
  nullary main_cst_10 (constant S_ .f32 0x00000000#32) ::
  binary main_v37 main_cst_10 main_v38 ((fun x v => Host.reduceAdd x v reducesTo_S262144_S_d0 h_S_) : (⟨S262144, .f32⟩ : BufTy).Contents (Elt F) → (⟨S_, .f32⟩ : BufTy).Contents (Elt F) → (⟨S_, .f32⟩ : BufTy).Contents (Elt F)) ::
  nullary main_cst_11 (constant S_ .f32 0x48800000#32) ::
  binary main_v38 main_cst_11 main_v39 (Host.divf : (⟨S_, .f32⟩ : BufTy).Contents (Elt F) → (⟨S_, .f32⟩ : BufTy).Contents (Elt F) → (⟨S_, .f32⟩ : BufTy).Contents (Elt F)) :: []

set_option maxRecDepth 4096 in
/-- @main is that straight line: with the called functions' bodies unfolded at their calls and sequencing
    reassociated, both sides are the same chain of operation steps, by definitional unfolding. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

set_option maxRecDepth 4096 in
/-- Every operation touches references of the TensorCore only. -/
theorem ops_sub : (ops : List (HloOp τ sig (Elt F))).Forall fun op => op.bufs ⊆ tcRefs τ sig :=
  ⟨nullary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub .., binary_bufs_sub ..,
    nullary_bufs_sub .., binary_bufs_sub .., unary_bufs_sub .., binary_bufs_sub .., nullary_bufs_sub .., binary_bufs_sub ..,
    unary_bufs_sub .., unary_bufs_sub .., unary_bufs_sub .., binary_bufs_sub .., unary_bufs_sub .., binary_bufs_sub ..,
    nullary_bufs_sub .., unary_bufs_sub .., binary_bufs_sub .., binary_bufs_sub .., unary_bufs_sub .., unary_bufs_sub ..,
    unary_bufs_sub .., unary_bufs_sub .., binary_bufs_sub .., nullary_bufs_sub .., unary_bufs_sub .., ternary_bufs_sub ..,
    nullary_bufs_sub .., binary_bufs_sub .., nullary_bufs_sub .., unary_bufs_sub .., ternary_bufs_sub .., nullary_bufs_sub ..,
    binary_bufs_sub .., binary_bufs_sub .., binary_bufs_sub .., nullary_bufs_sub .., unary_bufs_sub .., binary_bufs_sub ..,
    binary_bufs_sub .., nullary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    nullary_bufs_sub .., binary_bufs_sub .., nullary_bufs_sub .., binary_bufs_sub ..⟩

set_option maxRecDepth 4096 in
/-- On every device, for any float values, from any memory with zero counters: every weakly fair execution of @main
    terminates, and every final state has each buffer at the fold of the operations' results over the launch
    contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefStages.lean ====
/-
  The reference's stages, each one pure function of the argument arrays.

  Each definition below is one stage of the reference, written with the reference's own operations in the reference's
  own order: the prototype labels; the squared norms of the sample rows and of the prototype rows; the matrix of inner
  products; the matrix of expanded squared distances; the label mask; the two masked row minima; the vector of
  per-sample loss terms; the mean.
-/
import proofs.«149939_j49520972923161_1_alg».proof.Proof.Gen.ReferenceIdeal
import proofs.«149939_j49520972923161_1_alg».proof.Proof.Spec

noncomputable section

namespace Cert.ReferenceIdeal.RefValue

open Cert.ReferenceIdeal Idealize.ShloMosaic
open Cert.ReferenceIdeal.Facts₀

/-- The prototype labels: the specification's, at the program's broadcast fact. -/
def labels : IVec S512 32 := Cert.Glvq.protoLabels bcast_S_S512

/-- The squared norm of each sample row. -/
def xsq (x : FVec Ideal S262144x64 .f32) : FVec Ideal S262144 .f32 :=
  Host.reduceAdd (mulf x x) (constant S_ .f32 0x00000000#32) reducesTo_S262144x64_S262144_d1 h_S_

/-- The squared norm of each prototype row. -/
def psq (p : FVec Ideal S512x64 .f32) : FVec Ideal S512 .f32 :=
  Host.reduceAdd (mulf p p) (constant S_ .f32 0x00000000#32) reducesTo_S512x64_S512_d1 h_S_

/-- The inner products of the sample rows with the prototype rows. -/
def dots (x : FVec Ideal S262144x64 .f32) (p : FVec Ideal S512x64 .f32) : FVec Ideal S262144x512 .f32 :=
  Host.dotGeneral dot_S262144x64_S64x512_S262144x512_1_0_0_1_n_n none x (transpose S64x512 [1, 0] p transposes_S512x64_S64x512_1_0)

/-- The expanded squared distances. -/
def dists (x : FVec Ideal S262144x64 .f32) (p : FVec Ideal S512x64 .f32) : FVec Ideal S262144x512 .f32 :=
  subf
    (addf
      (broadcastInDim S262144x512 ![0, 1] bcast_S262144x1_S262144x512_0_1 (broadcastInDim S262144x1 ![0] bcast_S262144_S262144x1_0 (xsq x)))
      (broadcastInDim S262144x512 ![0, 1] bcast_S1x512_S262144x512_0_1 (broadcastInDim S1x512 ![1] bcast_S512_S1x512_1 (psq p))))
    (mulf (broadcastInDim S262144x512 ![] bcast_S_S262144x512 (constant S_ .f32 0x40000000#32)) (dots x p))

/-- The mask: prototype j's label is sample i's. -/
def mask (y : IVec S262144 32) : IVec S262144x512 1 :=
  cmpi .eq
    (broadcastInDim S262144x512 ![0, 1] bcast_S1x512_S262144x512_0_1 (broadcastInDim S1x512 ![1] bcast_S512_S1x512_1 labels))
    (broadcastInDim S262144x512 ![0, 1] bcast_S262144x1_S262144x512_0_1 (broadcastInDim S262144x1 ![0] bcast_S262144_S262144x1_0 y))

/-- The least distance to a prototype of the sample's class. -/
def near1 (x : FVec Ideal S262144x64 .f32) (p : FVec Ideal S512x64 .f32) (y : IVec S262144 32) : FVec Ideal S262144 .f32 :=
  Host.reduce FloatOps.minimumf
    (select (mask y) (dists x p) (broadcastInDim S262144x512 ![] bcast_S_S262144x512 (constant S_ .f32 0x7F800000#32)))
    (constant S_ .f32 0x7F800000#32) reducesTo_S262144x512_S262144_d1 h_S_

/-- The least distance to a prototype of another class. -/
def near2 (x : FVec Ideal S262144x64 .f32) (p : FVec Ideal S512x64 .f32) (y : IVec S262144 32) : FVec Ideal S262144 .f32 :=
  Host.reduce FloatOps.minimumf
    (select (mask y) (broadcastInDim S262144x512 ![] bcast_S_S262144x512 (constant S_ .f32 0x7F800000#32)) (dists x p))
    (constant S_ .f32 0x7F800000#32) reducesTo_S262144x512_S262144_d1 h_S_

/-- The loss term of each sample, from its two least distances. -/
def terms (d1 d2 : FVec Ideal S262144 .f32) : FVec Ideal S262144 .f32 :=
  Host.divf (broadcastInDim S262144 ![] bcast_S_S262144 (constant S_ .f32 0x3F800000#32))
    (addf (broadcastInDim S262144 ![] bcast_S_S262144 (constant S_ .f32 0x3F800000#32))
      (Host.exp (Host.negf (mulf (broadcastInDim S262144 ![] bcast_S_S262144 (constant S_ .f32 0x3F800000#32))
        (Host.divf (subf d1 d2)
          (addf (addf d1 d2) (broadcastInDim S262144 ![] bcast_S_S262144 (constant S_ .f32 0x3089705F#32))))))))

/-- The mean of the loss terms. -/
def out (x : FVec Ideal S262144x64 .f32) (p : FVec Ideal S512x64 .f32) (y : IVec S262144 32) : FVec Ideal S_ .f32 :=
  Host.divf
    (Host.reduceAdd (terms (near1 x p y) (near2 x p y)) (constant S_ .f32 0x00000000#32) reducesTo_S262144_S_d0 h_S_)
    (constant S_ .f32 0x48800000#32)

end Cert.ReferenceIdeal.RefValue

end
-- ==== Proof.RefTerm.lean ====
/-
  The fold of the reference's 76 operations, read at the result buffer and at the three argument buffers.

  Over any launch contents the fold leaves the result buffer at the last of the named stages (the mean of the loss
  terms, as a function of the launch contents of the three argument buffers), and leaves the three argument buffers as
  they were: no operation writes them.
-/
import proofs.«149939_j49520972923161_1_alg».proof.Proof.RefRun
import proofs.«149939_j49520972923161_1_alg».proof.Proof.RefStages

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

attribute [local irreducible] Host.reduce Host.reduceAdd broadcastInDim transpose select mulf addf subf Host.divf
  Host.negf Host.exp constant constantI cmpi andi addi Host.remsi iotaInDim in
set_option maxRecDepth 8192 in
set_option maxHeartbeats 1000000 in
/-- The fold at the result buffer is `out` of the launch contents of the three argument buffers: each operation's result
    read at its own buffer, the values carried through the called functions' typed buffers read back as they were
    written, and the stages then coincide name by name. -/
theorem after_out (V : Valuation τ sig (Elt Ideal)) :
    after (RefRun.ops (F := Ideal)) V (main_v39 : DevRef τ sig)
      = out (V (main_arg0 : DevRef τ sig)) (V (main_arg1 : DevRef τ sig)) (V (main_arg2 : DevRef τ sig)) := by
  after_results_simp
  rfl

theorem after_arg0 (V : Valuation τ sig (Elt Ideal)) :
    after (RefRun.ops (F := Ideal)) V (main_arg0 : DevRef τ sig) = V (main_arg0 : DevRef τ sig) := by
  after_results_simp

theorem after_arg1 (V : Valuation τ sig (Elt Ideal)) :
    after (RefRun.ops (F := Ideal)) V (main_arg1 : DevRef τ sig) = V (main_arg1 : DevRef τ sig) := by
  after_results_simp

theorem after_arg2 (V : Valuation τ sig (Elt Ideal)) :
    after (RefRun.ops (F := Ideal)) V (main_arg2 : DevRef τ sig) = V (main_arg2 : DevRef τ sig) := by
  after_results_simp

end Cert.ReferenceIdeal.RefValue

end
-- ==== Proof.LibBroadcastInDim.lean ====
/-
  Columns and rows set and spread by `broadcast_in_dim`, read at an index.

  A host program spreads a per-row scale over a matrix in two steps: the vector [a] is set as a column [a, 1]
  (`dims = [0]`), and the column is spread along the rows of an [a, b] array (`dims = [0, 1]`).  A per-column vector
  goes the other way round: [b] set as a row [1, b] (`dims = [1]`), the row spread down the rows of [a, b]
  (`dims = [0, 1]`).  Read at `(p, q)` the first array holds the vector's entry `p`, the second the vector's entry `q`.
  One lemma per step, for every extent (an axis of extent one is read at `0`, which is also its only index):
  • `vec_as_col`: [a] → [a, 1] at `(p, u)` is the vector at `p`;
  • `col_spread`: [a, 1] → [a, b] at `(p, q)` is the column at `(p, 0)`;
  • `vec_as_row`: [b] → [1, b] at `(u, q)` is the vector at `q`;
  • `row_spread`: [1, b] → [a, b] at `(p, q)` is the row at `(0, q)`.
-/
import Idealize.ShloMosaic.Lib.Pipeline.Value
import Idealize.ShloMosaic.Lib.ValueIdx

noncomputable section

namespace Cert.Lib.InDim

open Idealize.ShloMosaic Idealize.ShloMosaic.ValueIdx

variable {α : Type}

/-- A vector [a] set as a column [a, 1]: entry `(p, u)` is the vector's entry `p`. -/
theorem vec_as_col {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column [a, 1] spread along the rows of an [a, b] array: entry `(p, q)` is the column's entry in row `p`. -/
theorem col_spread {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A vector [b] set as a row [1, b]: entry `(u, q)` is the vector's entry `q`. -/
theorem vec_as_row {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread down the rows of an [a, b] array: entry `(p, q)` is the row's entry in column `q`. -/
theorem row_spread {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end Cert.Lib.InDim

end
-- ==== Proof.LibFlatSums.lean ====
/-
  Finite sums over a flattened range and over the indices of small shapes.

  • `sum_rows`: the numbers below `a · b` fall into `a` consecutive runs of `b`; position `j` of run `i` is the number
    `i · b + j`.  Summing a function of the number run by run, and within each run position by position, is summing it
    over all the numbers below `a · b` (every number is `i · b + j` for exactly one pair).
  • `sum_idx1`: a sum over the indices of a vector [n] is the sum over its `n` coordinates.
  • `sum_idx_n11`: a sum over the indices of an [n, 1, 1] array is the sum over its first coordinate, the other two
    coordinates being zero.
-/
import Idealize.ShloMosaic.Lib.ValueIdx
import Mathlib.Algebra.BigOperators.Fin
import Mathlib.Logic.Equiv.Fin.Basic

namespace Cert.Lib.FlatSums

open Idealize.ShloMosaic Idealize.ShloMosaic.ValueIdx

/-- Run by run, position by position: the sum over all the numbers below `n = a · b`. -/
theorem sum_rows {M : Type*} [AddCommMonoid M] (a b n : ℕ) (hn : a * b = n) (g : ℕ → M) :
    ∑ i : Fin a, ∑ j : Fin b, g (i.val * b + j.val) = ∑ k : Fin n, g k.val := by
  subst hn
  refine (Fintype.sum_prod_type' fun (i : Fin a) (j : Fin b) => g (i.val * b + j.val)).symm.trans ?_
  exact Fintype.sum_equiv finProdFinEquiv _ _ fun x => congrArg g (by
    rw [finProdFinEquiv_apply_val, Nat.mul_comm, Nat.add_comm])

/-- The indices of a vector [n] are its coordinates. -/
def idx1Equiv (n : ℕ) : (⟨1, ![n]⟩ : Shape).Idx ≃ Fin n where
  toFun j := j 0
  invFun k := ix1 k
  left_inv j := (eq_ix1 j).symm
  right_inv _ := rfl

theorem sum_idx1 {M : Type*} [AddCommMonoid M] {n : ℕ} (f : (⟨1, ![n]⟩ : Shape).Idx → M) :
    ∑ j, f j = ∑ k : Fin n, f (ix1 k) :=
  Fintype.sum_equiv (idx1Equiv n) f (fun k => f (ix1 k)) fun j => congrArg f (eq_ix1 j)

/-- An index of an [n, 1, 1] array is its first coordinate followed by two zeros. -/
theorem eq_ix3_n11 {n : ℕ} (j : (⟨3, ![n, 1, 1]⟩ : Shape).Idx) : j = ix3 (j 0) (0 : Fin 1) (0 : Fin 1) := by
  funext d
  apply Fin.ext
  match d with
  | ⟨0, _⟩ => rfl
  | ⟨1, _⟩ => have h : (j 1).val < 1 := (j 1).isLt; show (j 1).val = 0; omega
  | ⟨2, _⟩ => have h : (j 2).val < 1 := (j 2).isLt; show (j 2).val = 0; omega

/-- The indices of an [n, 1, 1] array are its first coordinates. -/
def idxN11Equiv (n : ℕ) : (⟨3, ![n, 1, 1]⟩ : Shape).Idx ≃ Fin n where
  toFun j := j 0
  invFun p := ix3 p (0 : Fin 1) (0 : Fin 1)
  left_inv j := (eq_ix3_n11 j).symm
  right_inv _ := rfl

theorem sum_idx_n11 {M : Type*} [AddCommMonoid M] {n : ℕ} (f : (⟨3, ![n, 1, 1]⟩ : Shape).Idx → M) :
    ∑ j, f j = ∑ p : Fin n, f (ix3 p (0 : Fin 1) (0 : Fin 1)) :=
  Fintype.sum_equiv (idxN11Equiv n) f (fun p => f (ix3 p (0 : Fin 1) (0 : Fin 1))) fun j => congrArg f (eq_ix3_n11 j)

end Cert.Lib.FlatSums
-- ==== Proof.RefIndex.lean ====
/-
  The reference's stages read at an index, over the extended reals.

  Stage by stage, in the order the reference computes them: a squared norm at row i is the zero word plus the sum of
  the 64 squares of the row; an inner product at (i, j) is the sum of the 64 products of sample row i with prototype
  row j (the transposed operand read back at the swapped index); the distance at (i, j) is the specification's
  expanded squared distance of the two rows; the mask at (i, j) compares prototype j's label with sample i's; each
  masked row minimum is the fold of the minimum from the +∞ word over the 512 prototypes; a loss term is the
  specification's logistic of the relative difference; the result is the specification's mean.
-/
import proofs.«149939_j49520972923161_1_alg».proof.Proof.RefStages
import proofs.«149939_j49520972923161_1_alg».proof.Proof.LibHostColumns
import proofs.«149939_j49520972923161_1_alg».proof.Proof.LibBroadcastInDim
import proofs.«149939_j49520972923161_1_alg».proof.Proof.LibPlainDot
import proofs.«149939_j49520972923161_1_alg».proof.Proof.LibRowMin
import proofs.«149939_j49520972923161_1_alg».proof.Proof.LibFlatSums
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Idealize.ShloMosaic Idealize.ShloMosaic.ValueIdx
open Cert.ReferenceIdeal.Facts₀

/-- A scalar spread over any shape reads the scalar everywhere. -/
theorem scalar_spread {α : Type} {t : Shape} (h : S_.BroadcastsInDim t (![] : Fin 0 → Fin t.rank)) (x : S_.Idx → α) (j : t.Idx) :
    broadcastInDim t ![] h x j = x ix0 :=
  broadcastInDim_apply _ h x j ix0 fun a => a.elim0

/-- The squared norm of sample row i. -/
theorem xsq_apply (x : FVec Ideal S262144x64 .f32) (i : Fin 262144) :
    xsq x (ix1 i) = Ideal.ofBits .f32 0x00000000#32 + ∑ k : Fin 64, x (ix2 i k) * x (ix2 i k) :=
  Cert.Lib.HostColumns.hostRowSum_apply (mulf x x) (constant S_ .f32 0x00000000#32) reducesTo_S262144x64_S262144_d1 (by decide) h_S_ i

/-- The squared norm of prototype row j. -/
theorem psq_apply (p : FVec Ideal S512x64 .f32) (j : Fin 512) :
    psq p (ix1 j) = Ideal.ofBits .f32 0x00000000#32 + ∑ k : Fin 64, p (ix2 j k) * p (ix2 j k) :=
  Cert.Lib.HostColumns.hostRowSum_apply (mulf p p) (constant S_ .f32 0x00000000#32) reducesTo_S512x64_S512_d1 (by decide) h_S_ j

/-- The transposed prototypes at (k, j) are the prototypes at (j, k). -/
theorem transpose_p_apply (p : FVec Ideal S512x64 .f32) (k : Fin 64) (j : Fin 512) :
    transpose S64x512 [1, 0] p transposes_S512x64_S64x512_1_0 (ix2 k j) = p (ix2 j k) :=
  transpose_apply [1, 0] p transposes_S512x64_S64x512_1_0 (ix2 k j) (ix2 j k) fun b => by
    match b with
    | ⟨0, _⟩ => rfl
    | ⟨1, _⟩ => rfl

/-- The inner product of sample row i with prototype row j. -/
theorem dots_apply (x : FVec Ideal S262144x64 .f32) (p : FVec Ideal S512x64 .f32) (i : Fin 262144) (j : Fin 512) :
    dots x p (ix2 i j) = ∑ k : Fin 64, x (ix2 i k) * p (ix2 j k) := by
  unfold dots
  refine (Cert.PlainDot.hostDot_apply dot_S262144x64_S64x512_S262144x512_1_0_0_1_n_n rfl x _ i j).trans ?_
  exact Finset.sum_congr rfl fun k _ => congrArg (x (ix2 i k) * ·) (transpose_p_apply p k j)

/-- The distance at (i, j) is the specification's, of sample row i and prototype row j. -/
theorem dists_apply (x : FVec Ideal S262144x64 .f32) (p : FVec Ideal S512x64 .f32) (i : Fin 262144) (j : Fin 512) :
    dists x p (ix2 i j) = Cert.Glvq.dist (fun k => x (ix2 i k)) (fun k => p (ix2 j k)) := by
  unfold dists Cert.Glvq.dist
  rw [subf_apply, addf_apply, mulf_apply, Cert.Lib.InDim.col_spread, Cert.Lib.InDim.vec_as_col, Cert.Lib.InDim.row_spread,
    Cert.Lib.InDim.vec_as_row, scalar_spread, xsq_apply, psq_apply, dots_apply]
  rfl

/-- The mask at (i, j): prototype j's label against sample i's. -/
theorem mask_apply (y : IVec S262144 32) (i : Fin 262144) (j : Fin 512) :
    mask y (ix2 i j) = IntOp.cmpi .eq (labels (ix1 j)) (y (ix1 i)) := by
  unfold mask
  show IntOp.cmpi .eq _ _ = _
  rw [Cert.Lib.InDim.row_spread, Cert.Lib.InDim.vec_as_row, Cert.Lib.InDim.col_spread, Cert.Lib.InDim.vec_as_col]

/-- The least distance from sample i to a prototype of its class is the specification's. -/
theorem near1_apply (x : FVec Ideal S262144x64 .f32) (p : FVec Ideal S512x64 .f32) (y : IVec S262144 32) (i : Fin 262144) :
    near1 x p y (ix1 i)
      = Cert.Glvq.nearSame (fun j => labels (ix1 j)) (fun j k => p (ix2 j k)) (fun k => x (ix2 i k)) (y (ix1 i)) := by
  unfold near1 Cert.Glvq.nearSame
  refine (Cert.Lib.RowMin.hostLastMin_apply _ _ reducesTo_S262144x512_S262144_d1 (by decide) h_S_ i).trans ?_
  refine congrArg₂ (fun a f => (Finset.univ : Finset (Fin 512)).fold min a f) Cert.Glvq.pinf_word (funext fun j => ?_)
  rw [select_apply, mask_apply, dists_apply, scalar_spread]
  exact congrArg (Scalar.select _ _) Cert.Glvq.pinf_word

/-- The least distance from sample i to a prototype of another class is the specification's. -/
theorem near2_apply (x : FVec Ideal S262144x64 .f32) (p : FVec Ideal S512x64 .f32) (y : IVec S262144 32) (i : Fin 262144) :
    near2 x p y (ix1 i)
      = Cert.Glvq.nearOther (fun j => labels (ix1 j)) (fun j k => p (ix2 j k)) (fun k => x (ix2 i k)) (y (ix1 i)) := by
  unfold near2 Cert.Glvq.nearOther
  refine (Cert.Lib.RowMin.hostLastMin_apply _ _ reducesTo_S262144x512_S262144_d1 (by decide) h_S_ i).trans ?_
  refine congrArg₂ (fun a f => (Finset.univ : Finset (Fin 512)).fold min a f) Cert.Glvq.pinf_word (funext fun j => ?_)
  rw [select_apply, mask_apply, dists_apply, scalar_spread]
  exact congrArg (fun a => Scalar.select _ a _) Cert.Glvq.pinf_word

/-- A loss term is the specification's logistic of the relative difference of the two least distances. -/
theorem terms_apply (d1 d2 : FVec Ideal S262144 .f32) (i : Fin 262144) :
    terms d1 d2 (ix1 i) = Cert.Glvq.sigm (d1 (ix1 i)) (d2 (ix1 i)) := by
  unfold terms Cert.Glvq.sigm
  show Ideal.div _ (_ + Ideal.exp (-(_ * Ideal.div (_ - _) ((_ + _) + _)))) = _
  rw [scalar_spread, scalar_spread]
  rfl

/-- The host's quotient at an entry. -/
theorem hostDivf_apply {s : Shape} {φ : FTy} (a b : FVec Ideal s φ) (i : s.Idx) : Host.divf a b i = Ideal.div (a i) (b i) := rfl

/-- The host's sum of a vector of 262144 entries into a scalar, from an initial scalar: the initial value plus the sum
    over the 262144 coordinates. -/
theorem hostSumAll_apply (v : FVec Ideal S262144 .f32) (init : FVec Ideal S_ .f32) (j : S_.Idx) :
    Host.reduceAdd v init reducesTo_S262144_S_d0 h_S_ j = init ix0 + ∑ i : Fin 262144, v (ix1 i) := by
  unfold Host.reduceAdd
  rw [Ideal.hostReduceAdd_def, Ideal.hostReduceAdd_total reducesTo_S262144_S_d0 (fun b => b.elim0), Cert.Lib.FlatSums.sum_idx1]
  exact congrArg (· + _) (congrArg init (funext fun d => d.elim0))

/-- The result is the specification's mean loss. -/
theorem out_apply (x : FVec Ideal S262144x64 .f32) (p : FVec Ideal S512x64 .f32) (y : IVec S262144 32) (j : S_.Idx) :
    out x p y j = Cert.Glvq.meanLoss (fun j => labels (ix1 j)) x p y := by
  unfold out Cert.Glvq.meanLoss Cert.Glvq.rowLoss
  rw [hostDivf_apply, hostSumAll_apply, constant_apply, constant_apply]
  simp only [terms_apply, near1_apply, near2_apply]

/-- The result, as a function on the one index of a scalar. -/
theorem out_eq (x : FVec Ideal S262144x64 .f32) (p : FVec Ideal S512x64 .f32) (y : IVec S262144 32) :
    out x p y = fun _ => Cert.Glvq.meanLoss (fun j => Cert.Glvq.protoLabels bcast_S_S512 (ix1 j)) x p y :=
  funext fun j => out_apply x p y j

end Cert.ReferenceIdeal.RefValue

end
-- ==== Proof.RefValue.lean ====
/-
  The reference's run, with its result as the specification's mean loss.

  Every weakly fair execution of the reference terminates; the result buffer then holds, at its one index, the mean
  loss of the launch contents of the three argument buffers (the labels of the prototypes being the specification's),
  and the three argument buffers hold what they held at the launch. The run leaves every buffer at the fold of the
  operations; the fold at the result buffer is the last of the named stages; and that stage, read at its index, is the
  specification's mean.
-/
import proofs.«149939_j49520972923161_1_alg».proof.Proof.RefRun
import proofs.«149939_j49520972923161_1_alg».proof.Proof.RefTerm
import proofs.«149939_j49520972923161_1_alg».proof.Proof.RefIndex

noncomputable section

namespace Cert.ReferenceIdeal.RefValue

open Cert.ReferenceIdeal Idealize.ShloMosaic Idealize.ShloMosaic.TcCoe Idealize.SL.Sem

/-- At the ideal instance, from any memory with zero counters: every weakly fair execution of @main terminates with the
    result buffer at the specification's mean loss of the argument arrays, and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v39)
          = (fun _ => Cert.Glvq.meanLoss (fun j => Cert.Glvq.protoLabels Facts₀.bcast_S_S512 (ValueIdx.ix1 j))
              (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c main_v39).trans (after_out _)).trans (out_eq _ _ _),
        (h c main_arg0).trans (after_arg0 _),
        (h c main_arg1).trans (after_arg1 _),
        (h c main_arg2).trans (after_arg2 _)⟩)
    (RefRun.run m ρ)

end Cert.ReferenceIdeal.RefValue

end
-- ==== Proof.lean ====
/-
  The certificate: a kernel that streams 262144 samples past 512 class prototypes in blocks of 2048, keeps for each
  sample the squared distance to the nearest prototype of its own class and to the nearest prototype of any other class,
  and accumulates the logistic function of their relative difference into a mean — against the same loss written in plain
  array operations.

  Over the extended reals both programs compute one function of the arguments (the specification's mean loss): the
  distance matrix is the same expression entry by entry, a rounding to the matrix unit's input format is the identity, the
  kernel's finite stand-in for +∞ is named and denotes +∞, and the kernel's sum — taken block by block, the blocks' partial
  sums added in grid order — is the reference's sum over all the samples, a finite sum's order being immaterial. The
  frames are the generated frame runs (the reference's the run of its host operations with the result dropped), and the one
  rewrite of the ideal pass, at its two sites, is the named constant's statement.
-/
import proofs.«149939_j49520972923161_1_alg».proof.Defs
import proofs.«149939_j49520972923161_1_alg».proof.Proof.Gen.Kernel
import proofs.«149939_j49520972923161_1_alg».proof.Proof.Gen.Kernel.Frame
import proofs.«149939_j49520972923161_1_alg».proof.Proof.Gen.KernelIdeal
import proofs.«149939_j49520972923161_1_alg».proof.Proof.Gen.KernelIdeal.Frame
import proofs.«149939_j49520972923161_1_alg».proof.Proof.Gen.ReferenceIdeal
import proofs.«149939_j49520972923161_1_alg».proof.Proof.Gen.Pre_finite_inputs
import proofs.«149939_j49520972923161_1_alg».proof.Proof.KernelValue
import proofs.«149939_j49520972923161_1_alg».proof.Proof.KernelLoss
import proofs.«149939_j49520972923161_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- The ideal pass named the kernel's fill value at its two sites: the table gives the name +∞, and the printed constant
    is that value over the extended reals. -/
theorem preserves : Cert.preserves_Kernel_KernelIdeal :=
  ⟨IdealRules.named_const.statement Cert.KernelIdeal.κ "pos_big" .f32 0x7149F2CA#32 ⊤ rfl,
    IdealRules.named_const.statement Cert.KernelIdeal.κ "pos_big" .f32 0x7149F2CA#32 ⊤ rfl⟩

/-- The kernel's result is the output block viewed as a scalar, and its one entry is the mean loss of the arguments; the
    reference's result is the mean loss of arguments that agree. -/
theorem algebraic : Cert.algebraic_KernelIdeal_ReferenceIdeal := by
  intro m ρ m' ρ' _ hagree
  refine ⟨fun c => shapeCast Cert.KernelIdeal.S_ (Cert.KernelIdeal.KValue.outBlock m c) Cert.KernelIdeal.Facts₀.shapeCasts_S1x1_S_,
    Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]
  funext i
  exact ((Cert.KernelIdeal.KValue.scalar_apply _ _ i).trans (Cert.KernelIdeal.Loss.out_eq m c _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
